-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x19 : Shape := ⟨2, ![100000, 19]⟩
abbrev S2x1600000 : Shape := ⟨2, ![2, 1600000]⟩
abbrev S19x128 : Shape := ⟨2, ![19, 128]⟩
abbrev S128 : Shape := ⟨1, ![128]⟩
abbrev S128x4 : Shape := ⟨2, ![128, 4]⟩
abbrev S4 : Shape := ⟨1, ![4]⟩
abbrev S_ : Shape := ⟨0, ![]⟩

class Facts : Prop where
  bcast_S_S100000x19 : S_.BroadcastsInDim S100000x19 (![] : Fin 0 → Fin S100000x19.rank)
  reducesTo_S100000x19_S_d0_1 : S100000x19.ReducesTo [0, 1] S_
  h_S_ : 0 < S_.numel
  bcast_S_S19x128 : S_.BroadcastsInDim S19x128 (![] : Fin 0 → Fin S19x128.rank)
  reducesTo_S19x128_S_d0_1 : S19x128.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S128x4 .f32) (main_arg6 : FVec F S128x4 .f32) (main_arg7 : FVec F S4 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x4 .f32 := Host.absf main_arg5
  let main_cst_6 : FVec F S_ .f32 := constant S_ .f32 0x7F800000#32
  let main_v20 : FVec F S128x4 .f32 := broadcastInDim S128x4 ![] bcast_S_S128x4 main_cst_6
  let main_v21 : IVec S128x4 1 := cmpf .olt main_v19 main_v20
  let main_c_7 : IVec S_ 1 := constantI S_ 1 1#1
  let main_v22 : IVec S_ 1 := (fun x v => Host.reduce IntOp.andi x v reducesTo_S128x4_S_d0_1 h_S_) main_v21 main_c_7
  let main_v23 : IVec S_ 1 := andi main_v18 main_v22
  let main_v24 : FVec F S128x4 .f32 := Host.absf main_arg6
  let main_cst_8 : FVec F S_ .f32 := constant S_ .f32 0x7F800000#32
  let main_v25 : FVec F S128x4 .f32 := broadcastInDim S128x4 ![] bcast_S_S128x4 main_cst_8
  let main_v26 : IVec S128x4 1 := cmpf .olt main_v24 main_v25
  let main_c_9 : IVec S_ 1 := constantI S_ 1 1#1
  let main_v27 : IVec S_ 1 := (fun x v => Host.reduce IntOp.andi x v reducesTo_S128x4_S_d0_1 h_S_) main_v26 main_c_9
  let main_v28 : IVec S_ 1 := andi main_v23 main_v27
  let main_v29 : FVec F S4 .f32 := Host.absf main_arg7
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S100000x19 .f32) (main_arg1 : IVec S2x1600000 32) (main_arg2 : FVec F S19x128 .f32) (main_arg3 : FVec F S19x128 .f32) (main_arg4 : FVec F S128 .f32) (main_arg5 : FVec F S128x4 .f32) (main_arg6 : FVec F S128x4 .f32) (main_arg7 : FVec F S4 .f32) : IVec S_ 1 :=
  let main_v0 : FVec F S100000x19 .f32 := Host.absf main_arg0
  let main_cst : FVec F S_ .f32 := constant S_ .f32 0x7F800000#32
  let main_v1 : FVec F S100000x19 .f32 := broadcastInDim S100000x19 ![] bcast_S_S100000x19 main_cst
  let main_v2 : IVec S100000x19 1 := cmpf .olt main_v0 main_v1
  let main_c : IVec S_ 1 := constantI S_ 1 1#1
  let main_v3 : IVec S_ 1 := (fun x v => Host.reduce IntOp.andi x v reducesTo_S100000x19_S_d0_1 h_S_) main_v2 main_c
  let main_v4 : FVec F S19x128 .f32 := Host.absf main_arg2
  let main_cst_0 : FVec F S_ .f32 := constant S_ .f32 0x7F800000#32
  let main_v5 : FVec F S19x128 .f32 := broadcastInDim S19x128 ![] bcast_S_S19x128 main_cst_0
  let main_v6 : IVec S19x128 1 := cmpf .olt main_v4 main_v5
  let main_c_1 : IVec S_ 1 := constantI S_ 1 1#1
  let main_v7 : IVec S_ 1 := (fun x v => Host.reduce IntOp.andi x v reducesTo_S19x128_S_d0_1 h_S_) main_v6 main_c_1
  let main_v8 : IVec S_ 1 := andi main_v3 main_v7
  let main_v9 : FVec F S19x128 .f32 := Host.absf main_arg3
  let main_cst_2 : FVec F S_ .f32 := constant S_ .f32 0x7F800000#32
  let main_v10 : FVec F S19x128 .f32 := broadcastInDim S19x128 ![] bcast_S_S19x128 main_cst_2
  let main_v11 : IVec S19x128 1 := cmpf .olt main_v9 main_v10
  let main_c_3 : IVec S_ 1 := constantI S_ 1 1#1
  let main_v12 : IVec S_ 1 := (fun x v => Host.reduce IntOp.andi x v reducesTo_S19x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x19 : Shape := ⟨2, ![100000, 19]⟩
abbrev S2x1600000 : Shape := ⟨2, ![2, 1600000]⟩
abbrev S19x128 : Shape := ⟨2, ![19, 128]⟩
abbrev S128 : Shape := ⟨1, ![128]⟩
abbrev S128x4 : Shape := ⟨2, ![128, 4]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x19 : Shape := ⟨2, ![1600000, 19]⟩
abbrev S100000x1 : Shape := ⟨2, ![100000, 1]⟩
abbrev S100000x128 : Shape := ⟨2, ![100000, 128]⟩
abbrev S5000x19 : Shape := ⟨2, ![5000, 19]⟩
abbrev S5000x128 : Shape := ⟨2, ![5000, 128]⟩
abbrev S1x128 : Shape := ⟨2, ![1, 128]⟩
abbrev S1600000x128 : Shape := ⟨2, ![1600000, 128]⟩
abbrev S100000x4 : Shape := ⟨2, ![100000, 4]⟩
abbrev S5000x4 : Shape := ⟨2, ![5000, 4]⟩
abbrev S1x4 : Shape := ⟨2, ![1, 4]⟩
abbrev S5000 : Shape := ⟨1, ![5000]⟩
abbrev S5000x1 : Shape := ⟨2, ![5000, 1]⟩

abbrev nBuf : Space → Nat
  | .hbm => 58
  | .vmem => 18
  | .smem => 0
  | _ => 0

abbrev bufTy : (tb : Table) → Fin (tcTables nBuf tb) → BufTy
  | .hbm, ⟨0, _⟩ => ⟨S100000x19, .f32⟩
  | .hbm, ⟨1, _⟩ => ⟨S2x1600000, .i32⟩
  | .hbm, ⟨2, _⟩ => ⟨S19x128, .f32⟩
  | .hbm, ⟨3, _⟩ => ⟨S19x128, .f32⟩
  | .hbm, ⟨4, _⟩ => ⟨S128, .f32⟩
  | .hbm, ⟨5, _⟩ => ⟨S128x4, .f32⟩
  | .hbm, ⟨6, _⟩ => ⟨S128x4, .f32⟩
  | .hbm, ⟨7, _⟩ => ⟨S4, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x19, .f32⟩
  | .hbm, ⟨33, _⟩ => ⟨S_, .f32⟩
  | .hbm, ⟨34, _⟩ => ⟨S100000x19, .f32⟩
  | .hbm, ⟨35, _⟩ => ⟨S1600000x1, .i32⟩
  | .hbm, ⟨36, _⟩ => ⟨S100000x19, .f32⟩
  | .hbm, ⟨37, _⟩ => ⟨S100000x1, .f32⟩
  | .hbm, ⟨38, _⟩ => ⟨S100000x19, .f32⟩
  | .hbm, ⟨39, _⟩ => ⟨S100000x19, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x1, .f32⟩
  | .hbm, ⟨55, _⟩ => ⟨S100000x128, .f32⟩
  | .hbm, ⟨56, _⟩ => ⟨S100000x128, .f32⟩
  | .hbm, ⟨57, _⟩ => ⟨S100000x4, .f32⟩
  | .local _ .vmem, ⟨0, _⟩ => ⟨S5000x19, .f32⟩
  | .local _ .vmem, ⟨1, _⟩ => ⟨S5000x19, .f32⟩
  | .local _ .vmem, ⟨2, _⟩ => ⟨S5000x19, .f32⟩
  | .local _ .vmem, ⟨3, _⟩ => ⟨S5000x19, .f32⟩
  | .local _ .vmem, ⟨4, _⟩ => ⟨S19x128, .f32⟩
  | .local _ .vmem, ⟨5, _⟩ => ⟨S19x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x4, .f32⟩
  | .local _ .vmem, ⟨14, _⟩ => ⟨S128x4, .f32⟩
  | .local _ .vmem, ⟨15, _⟩ => ⟨S4, .f32⟩
  | .local _ .vmem, ⟨16, _⟩ => ⟨S5000x4, .f32⟩
  | .local _ .vmem, ⟨17, _⟩ => ⟨S5000x4, .f32⟩
  | _, _ => ⟨S100000x19, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x19 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x19 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S19x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S19x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x4 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x19 : S_.BroadcastsInDim S100000x19 (![] : Fin 0 → Fin S100000x19.rank)
  bcast_S100000_S100000x1_0 : S100000.BroadcastsInDim S100000x1 (![0] : Fin 1 → Fin S100000x1.rank)
  bcast_S100000x1_S100000x19_0_1 : S100000x1.BroadcastsInDim S100000x19 (![0, 1] : Fin 2 → Fin S100000x19.rank)
  inb_S5000x19_S5000x19_0_0 : ∀ a, (![0, 0] : Fin 2 → Nat) a + S5000x19.size a ≤ S5000x19.size a
  h_S5000x19 : 0 < S5000x19.numel
  shapeCasts_S5000x19_S5000x19 : S5000x19.ShapeCasts S5000x19
  bitsLt_bf16_f32 : FTy.bits .bf16 < FTy.bits .f32
  inb_S19x128_S19x128_0_0 : ∀ a, (![0, 0] : Fin 2 → Nat) a + S19x128.size a ≤ S19x128.size a
  h_S19x128 : 0 < S19x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S5000x128_S5000x128 : S5000x128.ShapeCasts S5000x128
  inb_S128x4_S128x4_0_0 : ∀ a, (![0, 0] : Fin 2 → Nat) a + S128x4.size a ≤ S128x4.size a
  h_S128x4 : 0 < S128x4.numel
  inb_S4_S4_0 : ∀ a, (![0] : Fin 1 → Nat) a + S4.size a ≤ S4.size a
  h_S4 : 0 < S4.numel
  shapeCasts_S4_S1x4 : S4.ShapeCasts S1x4
  broadcasts_S1x4_S5000x4 : S1x4.Broadcasts S5000x4
  reduces_S5000x4_S5000 : S5000x4.Reduces [1] S5000
  shapeCasts_S5000_S5000x1 : S5000.ShapeCasts S5000x1
  broadcasts_S5000x1_S5000x4 : S5000x1.Broadcasts S5000x4
  inb_S5000x4_S5000x4_0_0 : ∀ a, (![0, 0] : Fin 2 → Nat) a + S5000x4.size a ≤ S5000x4.size a
  h_S5000x4 : 0 < S5000x4.numel
  scatter_S100000_S1600000x1_S1600000_n_0_0_1_wf : ScatterDims.WF S100000 S1600000x1 S1600000 [] [0] [0] 1
  gather_S100000x19_S1600000x1_S1600000x19_1_0_n_n_0_1_119_wf : GatherDims.WF S100000x19 S1600000x1 S1600000x19 [1] [0] [] [0] [] 1 ![1, 19]
  scatter_S100000x19_S1600000x1_S1600000x19_1_0_0_1_wf : ScatterDims.WF S100000x19 S1600000x1 S1600000x19 [1] [0] [0] 1
  dot_S5000x19_S19x128_S5000x128_1_0_0_1_n_n_wf : DotDims.WF S5000x19 S19x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x4_S5000x4_1_0_0_1_n_n_wf : DotDims.WF S5000x128 S128x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x19.size a ≤ S100000x19.size a
  hwx0_0 : ∀ i : grid0.Coords, EltTy.bits .f32 = 32 ∨ (Rect.block (s := S100000x19) S5000x19.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x19.size a ≤ S100000x19.size a
  hwx0_1 : ∀ i : grid0.Coords, EltTy.bits .f32 = 32 ∨ (Rect.block (s := S100000x19) S5000x19.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S19x128.size a ≤ S19x128.size a
  hwx0_2 : ∀ i : grid0.Coords, EltTy.bits .f32 = 32 ∨ (Rect.block (s := S19x128) S19x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S19x128.size a ≤ S19x128.size a
  hwx0_3 : ∀ i : grid0.Coords, EltTy.bits .f32 = 32 ∨ (Rect.block (s := S19x128) S19x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x4.size a ≤ S128x4.size a
  hwx1_2 : ∀ i : grid1.Coords, EltTy.bits .f32 = 32 ∨ (Rect.block (s := S128x4) S128x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x4.size a ≤ S128x4.size a
  hwx1_3 : ∀ i : grid1.Coords, EltTy.bits .f32 = 32 ∨ (Rect.block (s := S128x4) S128x4.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4.size a ≤ S4.size a
  hwx1_4 : ∀ i : grid1.Coords, EltTy.bits .f32 = 32 ∨ (Rect.block (s := S4) S4.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x4.size a ≤ S100000x4.size a
  hwx1_5 : ∀ i : grid1.Coords, EltTy.bits .f32 = 32 ∨ (Rect.block (s := S100000x4) S5000x4.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x19_S1600000x1_S1600000x19_1_0_n_n_0_1_119 : GatherDims S100000x19 S1600000x1 S1600000x19 where
  offsetDims := [1]
  collapsedSliceDims := [0]
  operandBatchingDims := []
  startIndicesBatchingDims := []
  startIndexMap := [0]
  indexVectorDim := 1
  sliceSizes := ![1, 19]
  wf := gather_S100000x19_S1600000x1_S1600000x19_1_0_n_n_0_1_119_wf
def scatter_S100000x19_S1600000x1_S1600000x19_1_0_0_1 : ScatterDims S100000x19 S1600000x1 S1600000x19 where
  updateWindowDims := [1]
  insertedWindowDims := [0]
  scatterDimsToOperandDims := [0]
  indexVectorDim := 1
  wf := scatter_S100000x19_S1600000x1_S1600000x19_1_0_0_1_wf
def dot_S5000x19_S19x128_S5000x128_1_0_0_1_n_n : DotDims S5000x19 S19x128 S5000x128 where
  lhsContracting := [1]
  rhsContracting := [0]
  lhsNonContracting := [0]
  rhsNonContracting := [1]
  lhsBatch := []
  rhsBatch := []
  wf := dot_S5000x19_S19x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x4_S5000x4_1_0_0_1_n_n : DotDims S5000x128 S128x4 S5000x4 where
  lhsContracting := [1]
  rhsContracting := [0]
  lhsNonContracting := [0]
  rhsNonContracting := [1]
  lhsBatch := []
  rhsBatch := []
  wf := dot_S5000x128_S128x4_S5000x4_1_0_0_1_n_n_wf

abbrev win0_0 : Pipeline.Window sig grid0 :=
  Pipeline.Window.ofSpec (Memref.whole main_v24) S5000x19.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x19.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S19x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S19x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x4.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S4.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x4.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x19 : Shape := ⟨2, ![100000, 19]⟩
abbrev S2x1600000 : Shape := ⟨2, ![2, 1600000]⟩
abbrev S19x128 : Shape := ⟨2, ![19, 128]⟩
abbrev S128 : Shape := ⟨1, ![128]⟩
abbrev S128x4 : Shape := ⟨2, ![128, 4]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x19 : Shape := ⟨2, ![1600000, 19]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S100000x4 : Shape := ⟨2, ![100000, 4]⟩
abbrev S1x4 : Shape := ⟨2, ![1, 4]⟩

abbrev nBuf : Space → Nat
  | .hbm => 96
  | .vmem => 0
  | .smem => 0
  | _ => 0

abbrev bufTy : (tb : Table) → Fin (tcTables nBuf tb) → BufTy
  | .hbm, ⟨0, _⟩ => ⟨S100000x19, .f32⟩
  | .hbm, ⟨1, _⟩ => ⟨S2x1600000, .i32⟩
  | .hbm, ⟨2, _⟩ => ⟨S19x128, .f32⟩
  | .hbm, ⟨3, _⟩ => ⟨S19x128, .f32⟩
  | .hbm, ⟨4, _⟩ => ⟨S128, .f32⟩
  | .hbm, ⟨5, _⟩ => ⟨S128x4, .f32⟩
  | .hbm, ⟨6, _⟩ => ⟨S128x4, .f32⟩
  | .hbm, ⟨7, _⟩ => ⟨S4, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x19, .f32⟩
  | .hbm, ⟨21, _⟩ => ⟨S_, .f32⟩
  | .hbm, ⟨22, _⟩ => ⟨S100000x19, .f32⟩
  | .hbm, ⟨23, _⟩ => ⟨S1600000x1, .i32⟩
  | .hbm, ⟨24, _⟩ => ⟨S100000x19, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x19, .f32⟩
  | .hbm, ⟨36, _⟩ => ⟨S100000x19, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S1x1600000, .i32⟩
  | .hbm, ⟨47, _⟩ => ⟨S1600000, .i32⟩
  | .hbm, ⟨48, _⟩ => ⟨S1x1600000, .i32⟩
  | .hbm, ⟨49, _⟩ => ⟨S1600000, .i32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x128, .f32⟩
  | .hbm, ⟨74, _⟩ => ⟨S100000x128, .f32⟩
  | .hbm, ⟨75, _⟩ => ⟨S100000x4, .f32⟩
  | .hbm, ⟨76, _⟩ => ⟨S100000x4, .f32⟩
  | .hbm, ⟨77, _⟩ => ⟨S100000x4, .f32⟩
  | .hbm, ⟨78, _⟩ => ⟨S1x4, .f32⟩
  | .hbm, ⟨79, _⟩ => ⟨S100000x4, .f32⟩
  | .hbm, ⟨80, _⟩ => ⟨S100000x4, .f32⟩
  | .hbm, ⟨81, _⟩ => ⟨S_, .f32⟩
  | .hbm, ⟨82, _⟩ => ⟨S100000, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S100000x1, .f32⟩
  | .hbm, ⟨87, _⟩ => ⟨S100000x4, .f32⟩
  | .hbm, ⟨88, _⟩ => ⟨S100000x4, .f32⟩
  | .hbm, ⟨89, _⟩ => ⟨S100000x4, .f32⟩
  | .hbm, ⟨90, _⟩ => ⟨S_, .f32⟩
  | .hbm, ⟨91, _⟩ => ⟨S100000, .f32⟩
  | .hbm, ⟨92, _⟩ => ⟨S100000x1, .f32⟩
  | .hbm, ⟨93, _⟩ => ⟨S100000x1, .f32⟩
  | .hbm, ⟨94, _⟩ => ⟨S100000x4, .f32⟩
  | .hbm, ⟨95, _⟩ => ⟨S100000x4, .f32⟩
  | _, _ => ⟨S100000x19, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_call1_cst_0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_cst_1 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_v59 : Ref sig .tc := ⟨.hbm, 95, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x19 : S_.BroadcastsInDim S100000x19 (![] : Fin 0 → Fin S100000x19.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x19_0_1 : S100000x1.BroadcastsInDim S100000x19 (![0, 1] : Fin 2 → Fin S100000x19.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  reducesTo_S100000x4_S100000_d1 : S100000x4.ReducesTo [1] S100000
  h_S_ : 0 < S_.numel
  bcast_S100000x1_S100000x4_0_1 : S100000x1.BroadcastsInDim S100000x4 (![0, 1] : Fin 2 → Fin S100000x4.rank)
  gather_S100000x19_S1600000x1_S1600000x19_1_0_n_n_0_1_119_wf : GatherDims.WF S100000x19 S1600000x1 S1600000x19 [1] [0] [] [0] [] 1 ![1, 19]
  scatter_S100000x19_S1600000x1_S1600000x19_1_0_0_1_wf : ScatterDims.WF S100000x19 S1600000x1 S1600000x19 [1] [0] [0] 1
  scatter_S100000_S1600000x1_S1600000_n_0_0_1_wf : ScatterDims.WF S100000 S1600000x1 S1600000 [] [0] [0] 1
  dot_S100000x19_S19x128_S100000x128_1_0_0_1_n_n_wf : DotDims.WF S100000x19 S19x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x4_S100000x4_1_0_0_1_n_n_wf : DotDims.WF S100000x128 S128x4 S100000x4 [1] [0] [0] [1] [] []

variable [Facts₀]

def gather_S100000x19_S1600000x1_S1600000x19_1_0_n_n_0_1_119 : GatherDims S100000x19 S1600000x1 S1600000x19 where
  offsetDims := [1]
  collapsedSliceDims := [0]
  operandBatchingDims := []
  startIndicesBatchingDims := []
  startIndexMap := [0]
  indexVectorDim := 1
  sliceSizes := ![1, 19]
  wf := gather_S100000x19_S1600000x1_S1600000x19_1_0_n_n_0_1_119_wf
def scatter_S100000x19_S1600000x1_S1600000x19_1_0_0_1 : ScatterDims S100000x19 S1600000x1 S1600000x19 where
  updateWindowDims := [1]
  insertedWindowDims := [0]
  scatterDimsToOperandDims := [0]
  indexVectorDim := 1
  wf := scatter_S100000x19_S1600000x1_S1600000x19_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x19_S19x128_S100000x128_1_0_0_1_n_n : DotDims S100000x19 S19x128 S100000x128 where
  lhsContracting := [1]
  rhsContracting := [0]
  lhsNonContracting := [0]
  rhsNonContracting := [1]
  lhsBatch := []
  rhsBatch := []
  wf := dot_S100000x19_S19x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x4_S100000x4_1_0_0_1_n_n : DotDims S100000x128 S128x4 S100000x4 where
  lhsContracting := [1]
  rhsContracting := [0]
  lhsNonContracting := [0]
  rhsNonContracting := [1]
  lhsBatch := []
  rhsBatch := []
  wf := dot_S100000x128_S128x4_S100000x4_1_0_0_1_n_n_wf

class Facts : Prop extends Facts₀ where

variable [Facts]
-- ==== Proof.KernelRun.lean ====
/-
  The kernel program's run with its result array named.

  The run of `main` on the TensorCores passes through four segments: a stretch of host operations, the first dense
  region, a second stretch of host operations, the second dense region. The buffer contents at the four boundaries are
  the fold `Gen.W1 … Gen.W4` from the launch memory. At the end every unscoped buffer holds `Gen.W4`'s contents; read
  at the result array `main_v39` this names the result, and read at the eight argument arrays it gives back the
  launch contents (no host operation and no region writes an argument).
-/
import proofs.«165609_j13305808683556_1_alg».proof.Proof.Gen.KernelIdeal.Frame

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal

variable {F : FTy → Type} [FloatOps F]

local notation "𝕄" => MT nD τ sig Unit (Elt F) ℕ (UR sig nD τ) ℕ

set_option backward.isDefEq.respectTransparency.types false in
/-- From any memory with zero counters, every weakly fair execution of `main` on the TensorCores terminates, and in
    every final state the result array `main_v39` holds the last boundary's contents `Gen.W4` there, and each of the
    eight argument arrays holds what it held at launch. -/
theorem run_named (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v39) = Gen.W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) Gen.adm (Gen.pdats m ρ) () Gen.cellOf_inj emb₁ defs₀ Gen.𝒱₀ Gen.L Gen.lv m ρ main (Gen.segs m ρ)
    (fun c Q => by rw [Gen.main_run m ρ c])
    (by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun _ => .rfl, fun _ => .rfl⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W4 m ρ c) s')
      isplitl [Hh] <;> iassumption)
    (hQ := fun s h c =>
      ⟨h c _ (Gen.mem_uc main_v39 (by decide)),
       (h c _ (Gen.mem_uc main_arg0 (by decide))).trans (Gen.W4_main_arg0 m ρ c),
       (h c _ (Gen.mem_uc main_arg1 (by decide))).trans (Gen.W4_main_arg1 m ρ c),
       (h c _ (Gen.mem_uc main_arg2 (by decide))).trans (Gen.W4_main_arg2 m ρ c),
       (h c _ (Gen.mem_uc main_arg3 (by decide))).trans (Gen.W4_main_arg3 m ρ c),
       (h c _ (Gen.mem_uc main_arg4 (by decide))).trans (Gen.W4_main_arg4 m ρ c),
       (h c _ (Gen.mem_uc main_arg5 (by decide))).trans (Gen.W4_main_arg5 m ρ c),
       (h c _ (Gen.mem_uc main_arg6 (by decide))).trans (Gen.W4_main_arg6 m ρ c),
       (h c _ (Gen.mem_uc main_arg7 (by decide))).trans (Gen.W4_main_arg7 m ρ c)⟩)

end Cert.KernelIdeal.KernelRun

end
-- ==== Proof.KernelHost.lean ====
/-
  What the host computes around the two dense kernels, as functions of the edge list and a feature array.

  The edge list `E : [2, 1600000]` holds a source row (row 0) and a destination row (row 1). A source index that is
  negative is shifted by the number of nodes before the gather (jnp's index normalisation). `degInv` is, per node,
  `1 / max(number of incoming edges, 1)`, the count obtained by scatter-adding ones at the destinations. The mean
  aggregation of a feature array `X` is the scatter-add, at the destinations, of the rows of `X` gathered at the
  sources, times `degInv` broadcast along the feature axis. Each definition is the composition of the printed host
  operations, in their order.
-/
import proofs.«165609_j13305808683556_1_alg».proof.KernelIdeal
import proofs.«165609_j13305808683556_1_alg».proof.Proof.Gen.KernelIdeal

noncomputable section

namespace Cert.KernelIdeal.HostTerms

open Cert.KernelIdeal Cert.KernelIdeal.Facts₀ Cert.KernelIdeal.Facts Idealize.ShloMosaic

variable {F : FTy → Type} [FloatOps F]

/-- Row `a` of the edge list as a vector of edge endpoints. -/
def srcRow (E : IVec S2x1600000 32) : IVec S1600000 32 :=
  shapeCast _ (extractStridedSlice S1x1600000 ![0, 0] E slices_S2x1600000_S1x1600000_0_0) shapeCasts_S1x1600000_S1600000

def dstRow (E : IVec S2x1600000 32) : IVec S1600000 32 :=
  shapeCast _ (extractStridedSlice S1x1600000 ![1, 0] E slices_S2x1600000_S1x1600000_1_0) shapeCasts_S1x1600000_S1600000

/-- The gather's start indices: a negative source index is shifted by the number of nodes. -/
def srcIdx (E : IVec S2x1600000 32) : IVec S1600000x1 32 :=
  broadcastInDim S1600000x1 ![0] bcast_S1600000_S1600000x1_0
    (select (cmpi .slt (srcRow E) (broadcastInDim S1600000 ![] bcast_S_S1600000 (constantI S_ 32 0#32)))
      (addi (srcRow E) (broadcastInDim S1600000 ![] bcast_S_S1600000 (constantI S_ 32 100000#32))) (srcRow E))

/-- The scatter's indices: the destinations, as a column. -/
def dstIdx (E : IVec S2x1600000 32) : IVec S1600000x1 32 :=
  broadcastInDim S1600000x1 ![0] bcast_S1600000_S1600000x1_0 (dstRow E)

/-- Per node, the number of incoming edges: ones scatter-added at the destinations. -/
def degree (E : IVec S2x1600000 32) : FVec F S100000 .f32 :=
  Host.scatterAdd scatter_S100000_S1600000x1_S1600000_n_0_0_1
    (broadcastInDim S100000 ![] bcast_S_S100000 (constant S_ .f32 0x00000000#32)) (dstIdx E)
    (broadcastInDim S1600000 ![] bcast_S_S1600000 (constant S_ .f32 0x3F800000#32))

/-- Per node, `1 / max(degree, 1)`. -/
def degInv (E : IVec S2x1600000 32) : FVec F S100000 .f32 :=
  Host.divf (broadcastInDim S100000 ![] bcast_S_S100000 (constant S_ .f32 0x3F800000#32))
    (maximumf (degree (F := F) E) (broadcastInDim S100000 ![] bcast_S_S100000 (constant S_ .f32 0x3F800000#32)))

/-- Mean aggregation of 19 input features. -/
def mean19 (E : IVec S2x1600000 32) (X : FVec F S100000x19 .f32) : FVec F S100000x19 .f32 :=
  mulf
    (Host.scatterAdd scatter_S100000x19_S1600000x1_S1600000x19_1_0_0_1
      (broadcastInDim S100000x19 ![] bcast_S_S100000x19 (constant S_ .f32 0x00000000#32)) (dstIdx E)
      (Host.gather gather_S100000x19_S1600000x1_S1600000x19_1_0_n_n_0_1_119 X (srcIdx E)))
    (broadcastInDim S100000x19 ![0, 1] bcast_S100000x1_S100000x19_0_1
      (broadcastInDim S100000x1 ![0] bcast_S100000_S100000x1_0 (degInv (F := F) E)))

/-- Mean aggregation of 128 hidden features. -/
def mean128 (E : IVec S2x1600000 32) (H : FVec F S100000x128 .f32) : FVec F S100000x128 .f32 :=
  mulf
    (Host.scatterAdd scatter_S100000x128_S1600000x1_S1600000x128_1_0_0_1
      (broadcastInDim S100000x128 ![] bcast_S_S100000x128 (constant S_ .f32 0x00000000#32)) (dstIdx E)
      (Host.gather gather_S100000x128_S1600000x1_S1600000x128_1_0_n_n_0_1_1128 H (srcIdx E)))
    (broadcastInDim S100000x128 ![0, 1] bcast_S100000x1_S100000x128_0_1
      (broadcastInDim S100000x1 ![0] bcast_S100000_S100000x1_0 (degInv (F := F) E)))

end Cert.KernelIdeal.HostTerms

end
-- ==== Proof.KernelGlue.lean ====
/-
  The host operations between the launch memory and the two dense regions, read at the buffers the regions take.

  `Gen.W1 … Gen.W4` are the buffer contents at the boundaries of the run's four segments; `Gen.V1`, `Gen.V3` are the
  contents the first and the second region are entered from. Here:
  * the result array at the end is the second region's output array as its write-backs leave it, and the hidden
    array the second region reads is the first region's output array as its write-backs leave it;
  * the first region's aggregated input is the mean aggregation of the node features over the edge list, and its
    other arrays are arguments as launched;
  * the second region's aggregated input is the mean aggregation of the hidden array over the same edge list (the
    edge rows and the inverse degrees were computed before the first region, which does not write them), and its
    weights and bias are arguments as launched.
-/
import proofs.«165609_j13305808683556_1_alg».proof.Proof.Gen.KernelIdeal.Frame
import proofs.«165609_j13305808683556_1_alg».proof.Proof.KernelHost

set_option maxRecDepth 16384

noncomputable section

namespace Cert.KernelIdeal.KernelGlue

open Idealize.ShloMosaic Idealize.ShloMosaic.TcCoe Idealize.ShloMosaic.Tactic
open Cert.KernelIdeal Cert.KernelIdeal.Facts₀ Cert.KernelIdeal.Facts
open Cert.KernelIdeal.HostTerms

variable {F : FTy → Type} [FloatOps F]

variable (m : (ℓ : Loc nD τ sig) → Buf (Elt F) ℓ) (ρ : Dev nD → PrngReg) (c : Dev nD)

/-! ## The two output arrays -/

/-- The result array at the end of the run is the second region's output array after all its write-backs. -/
theorem result_eq : Gen.W4 m ρ c (Proc.devRef .tc main_v39) = (Gen.dat1 (Gen.V3 m ρ) c).arrAt 5 cfg1.N :=
  Gen.W4_arr m ρ c 5

/-- The second stretch of host operations does not write the hidden array. -/
theorem V3_v25_W2 : Gen.V3 m ρ c main_v25 = Gen.W2 m ρ c (Proc.devRef .tc main_v25) :=
  StableHlo.after_of_forall_not_mem (b := Proc.devRef .tc main_v25) _ _ (List.forall_iff_forall_mem.mp (by
    simp only [Gen.hostOps1, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- The hidden array the second region reads is the first region's output array after all its write-backs. -/
theorem hidden_eq : Gen.V3 m ρ c main_v25 = (Gen.dat0 (Gen.V1 m ρ) c).arrAt 5 cfg0.N :=
  (V3_v25_W2 m ρ c).trans (Gen.W2_arr m ρ c 5)

/-! ## Before the first region -/

/-- The first region's aggregated input: the mean aggregation of the node features. -/
theorem V1_mean : Gen.V1 m ρ c main_v24
    = mean19 (m ((c.tc : Thread nD τ).loc main_arg1)) (m ((c.tc : Thread nD τ).loc main_arg0)) := by
  show StableHlo.after Gen.hostOps0 (Gen.W0 m ρ c) (Proc.devRef .tc main_v24) = _
  after_results_simp
  rfl

/-- The edge list's source row, destination row and the inverse degrees, as the first stretch leaves them. -/
theorem W1_v1 : Gen.W1 m ρ c (Proc.devRef .tc main_v1) = srcRow (m ((c.tc : Thread nD τ).loc main_arg1)) := by
  show StableHlo.after Gen.hostOps0 (Gen.W0 m ρ c) (Proc.devRef .tc main_v1) = _
  after_results <;> rfl
theorem W1_v3 : Gen.W1 m ρ c (Proc.devRef .tc main_v3) = dstRow (m ((c.tc : Thread nD τ).loc main_arg1)) := by
  show StableHlo.after Gen.hostOps0 (Gen.W0 m ρ c) (Proc.devRef .tc main_v3) = _
  after_results <;> rfl
theorem W1_v11 : Gen.W1 m ρ c (Proc.devRef .tc main_v11) = degInv (F := F) (m ((c.tc : Thread nD τ).loc main_arg1)) := by
  show StableHlo.after Gen.hostOps0 (Gen.W0 m ρ c) (Proc.devRef .tc main_v11) = _
  after_results <;> rfl

/-- No operation of the first stretch writes an argument. -/
theorem V1_arg0 : Gen.V1 m ρ c main_arg0 = m ((c.tc : Thread nD τ).loc main_arg0) := by
  show StableHlo.after Gen.hostOps0 (Gen.W0 m ρ c) (Proc.devRef .tc main_arg0) = _
  after_results <;> rfl
theorem V1_arg2 : Gen.V1 m ρ c main_arg2 = m ((c.tc : Thread nD τ).loc main_arg2) := by
  show StableHlo.after Gen.hostOps0 (Gen.W0 m ρ c) (Proc.devRef .tc main_arg2) = _
  after_results <;> rfl
theorem V1_arg3 : Gen.V1 m ρ c main_arg3 = m ((c.tc : Thread nD τ).loc main_arg3) := by
  show StableHlo.after Gen.hostOps0 (Gen.W0 m ρ c) (Proc.devRef .tc main_arg3) = _
  after_results <;> rfl
theorem V1_arg4 : Gen.V1 m ρ c main_arg4 = m ((c.tc : Thread nD τ).loc main_arg4) := by
  show StableHlo.after Gen.hostOps0 (Gen.W0 m ρ c) (Proc.devRef .tc main_arg4) = _
  after_results <;> rfl

/-! ## Before the second region -/

/-- The second region's aggregated input, over the hidden array as the first region leaves it: the second stretch
    recomputes the gather's start indices from the source row and reuses the destination row and the inverse
    degrees, none of which the first region writes. -/
theorem V3_mean_W2 : Gen.V3 m ρ c main_v38
    = mean128 (m ((c.tc : Thread nD τ).loc main_arg1)) (Gen.W2 m ρ c (Proc.devRef .tc main_v25)) := by
  show StableHlo.after Gen.hostOps1 (Gen.W2 m ρ c) (Proc.devRef .tc main_v38) = _
  after_results_simp
  rw [Gen.W2_of_ne m ρ c main_v1 (by decide), Gen.W2_of_ne m ρ c main_v3 (by decide),
    Gen.W2_of_ne m ρ c main_v11 (by decide), W1_v1, W1_v3, W1_v11]
  rfl

/-- The second region's aggregated input: the mean aggregation of the hidden array it reads. -/
theorem V3_mean : Gen.V3 m ρ c main_v38
    = mean128 (m ((c.tc : Thread nD τ).loc main_arg1)) (Gen.V3 m ρ c main_v25) := by
  rw [V3_v25_W2]; exact V3_mean_W2 m ρ c

/-- Neither stretch of host operations nor the first region writes the second layer's weights and bias. -/
theorem V3_arg5 : Gen.V3 m ρ c main_arg5 = m ((c.tc : Thread nD τ).loc main_arg5) := by
  have h : Gen.V3 m ρ c main_arg5 = Gen.W2 m ρ c (Proc.devRef .tc main_arg5) := by
    show StableHlo.after Gen.hostOps1 (Gen.W2 m ρ c) (Proc.devRef .tc main_arg5) = _
    after_results <;> rfl
  rw [h, Gen.W2_of_ne m ρ c main_arg5 (by decide)]
  show StableHlo.after Gen.hostOps0 (Gen.W0 m ρ c) (Proc.devRef .tc main_arg5) = _
  after_results <;> rfl
theorem V3_arg6 : Gen.V3 m ρ c main_arg6 = m ((c.tc : Thread nD τ).loc main_arg6) := by
  have h : Gen.V3 m ρ c main_arg6 = Gen.W2 m ρ c (Proc.devRef .tc main_arg6) := by
    show StableHlo.after Gen.hostOps1 (Gen.W2 m ρ c) (Proc.devRef .tc main_arg6) = _
    after_results <;> rfl
  rw [h, Gen.W2_of_ne m ρ c main_arg6 (by decide)]
  show StableHlo.after Gen.hostOps0 (Gen.W0 m ρ c) (Proc.devRef .tc main_arg6) = _
  after_results <;> rfl
theorem V3_arg7 : Gen.V3 m ρ c main_arg7 = m ((c.tc : Thread nD τ).loc main_arg7) := by
  have h : Gen.V3 m ρ c main_arg7 = Gen.W2 m ρ c (Proc.devRef .tc main_arg7) := by
    show StableHlo.after Gen.hostOps1 (Gen.W2 m ρ c) (Proc.devRef .tc main_arg7) = _
    after_results <;> rfl
  rw [h, Gen.W2_of_ne m ρ c main_arg7 (by decide)]
  show StableHlo.after Gen.hostOps0 (Gen.W0 m ρ c) (Proc.devRef .tc main_arg7) = _
  after_results <;> rfl

end Cert.KernelIdeal.KernelGlue

end
-- ==== Proof.LibPlainMatmul.lean ====
/-
  A plain matrix product read at an index, at the ideal values.

  For the dimension numbers of an ordinary product of an `M × K` matrix by a `K × N` matrix (contract the left
  operand's axis 1 with the right operand's axis 0, no batch axis), the product accumulated into the zero matrix
  is, at row `r` and column `e`, the sum over `k < K` of `lhs (r, k) * rhs (k, e)` on the extended reals: no
  rounding, no chunk order, and the zero accumulator contributes `0 +`. Stated over literal-size coordinates
  (`ix2 r e`) so that it applies to a printed product by unification; a printed record of dimension numbers with
  these six lists is `DotDims.plain M K N` up to the proof of its well-formedness, which is irrelevant.
-/
import Idealize.ShloMosaic.Lib.ValueIdx
import Idealize.ShloMosaic.PureOps.Ideal.Laws

noncomputable section

namespace Idealize.ShloMosaic.PlainMatmul

open Idealize.ShloMosaic Idealize.ShloMosaic.ValueIdx

/-- The contraction shape of a plain product has one axis, of extent `K`. -/
theorem contr_rank (M K N : ℕ) : (DotDims.plain M K N).contr.rank = 1 := rfl

theorem contr_size (M K N : ℕ) : (DotDims.plain M K N).contr.size ⟨0, by rw [contr_rank]; exact Nat.one_pos⟩ = K := rfl

/-- The operands' coordinates at output index `j` and contraction index `q`: the left operand reads `j`'s row and `q`,
    the right operand `q` and `j`'s column. -/
theorem lhs_val0 (M K N : ℕ) (j : (⟨2, ![M, N]⟩ : Shape).Idx) (q : (DotDims.plain M K N).contr.Idx) :
    ((DotDims.plain M K N).lhsIdx j q 0).val = (j 0).val := rfl
theorem lhs_val1 (M K N : ℕ) (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q
theorem rhs_val0 (M K N : ℕ) (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q
theorem rhs_val1 (M K N : ℕ) (j : (⟨2, ![M, N]⟩ : Shape).Idx) (q : (DotDims.plain M K N).contr.Idx) :
    ((DotDims.plain M K N).rhsIdx j q 1).val = (j 1).val := rfl

/-- So at output `(r, e)` and contraction coordinate `k` the left operand is read at `(r, k)` and the right at `(k, e)`. -/
theorem lhsIdx_eq (M K N : ℕ) (r : Fin M) (e : Fin N) (k : Fin K) :
    (DotDims.plain M K N).lhsIdx (ix2 r e) ((contrEquiv1 (DotDims.plain M K N) K (contr_rank M K N) (contr_size M K N)).symm k) = ix2 r k := by
  have hk := contrEquiv1_symm_val (DotDims.plain M K N) K (contr_rank M K N) (contr_size M K N) k
  funext a
  refine Fin.ext ?_
  match a with
  | ⟨0, _⟩ => exact lhs_val0 M K N _ _
  | ⟨1, _⟩ => exact (lhs_val1 M K N _ _).trans hk

theorem rhsIdx_eq (M K N : ℕ) (r : Fin M) (e : Fin N) (k : Fin K) :
    (DotDims.plain M K N).rhsIdx (ix2 r e) ((contrEquiv1 (DotDims.plain M K N) K (contr_rank M K N) (contr_size M K N)).symm k) = ix2 k e := by
  have hk := contrEquiv1_symm_val (DotDims.plain M K N) K (contr_rank M K N) (contr_size M K N) k
  funext a
  refine Fin.ext ?_
  match a with
  | ⟨0, _⟩ => exact (rhs_val0 M K N _ _).trans hk
  | ⟨1, _⟩ => exact rhs_val1 M K N _ _

/-- A plain product into the zero matrix, at `(r, e)`: the sum over the inner axis of the operands' products. -/
theorem matmul_zero_apply (M K N : ℕ) (prec : Option ContractPrecision)
    (lhs : FVec Ideal ⟨2, ![M, K]⟩ .f32) (rhs : FVec Ideal ⟨2, ![K, N]⟩ .f32) (r : Fin M) (e : Fin N) :
    matmul (DotDims.plain M K N) prec lhs rhs (constant (F := Ideal) ⟨2, ![M, N]⟩ .f32 0x00000000#32) (ix2 r e)
      = ∑ k : Fin K, lhs (ix2 r k) * rhs (ix2 k e) := by
  show FloatOps.matmul (DotDims.plain M K N) prec lhs rhs (constant (F := Ideal) ⟨2, ![M, N]⟩ .f32 0x00000000#32) (ix2 r e) = _
  rw [Ideal.matmul_constant_zero_apply, ← Equiv.sum_comp (contrEquiv1 (DotDims.plain M K N) K (contr_rank M K N) (contr_size M K N)).symm]
  refine Finset.sum_congr rfl fun k _ => ?_
  rw [lhsIdx_eq, rhsIdx_eq]

end Idealize.ShloMosaic.PlainMatmul

end
-- ==== Proof.LibPlainMatmulFmt.lean ====
/-
  A plain matrix product read at an index, for operands of any float formats.

  At the ideal values every float format is the extended reals, so the product of an `M × K` matrix by a `K × N`
  matrix accumulated into the zero matrix is, at row `r` and column `e`, the sum over `k < K` of
  `lhs (r, k) * rhs (k, e)` whatever formats label the two operands (a kernel that narrows its operands to a
  16-bit format before the product is read by this form).
-/
import proofs.«165609_j13305808683556_1_alg».proof.Proof.LibPlainMatmul

noncomputable section

namespace Idealize.ShloMosaic.PlainMatmul

open Idealize.ShloMosaic Idealize.ShloMosaic.ValueIdx

/-- A plain product of operands of formats `φ₁`, `φ₂` into the zero matrix, at `(r, e)`: the sum over the inner axis
    of the operands' products. -/
theorem matmul_zero_apply_fmt {φ₁ φ₂ : FTy} (M K N : ℕ) (prec : Option ContractPrecision)
    (lhs : FVec Ideal ⟨2, ![M, K]⟩ φ₁) (rhs : FVec Ideal ⟨2, ![K, N]⟩ φ₂) (r : Fin M) (e : Fin N) :
    matmul (DotDims.plain M K N) prec lhs rhs (constant (F := Ideal) ⟨2, ![M, N]⟩ .f32 0x00000000#32) (ix2 r e)
      = ∑ k : Fin K, lhs (ix2 r k) * rhs (ix2 k e) := by
  show FloatOps.matmul (DotDims.plain M K N) prec lhs rhs (constant (F := Ideal) ⟨2, ![M, N]⟩ .f32 0x00000000#32) (ix2 r e) = _
  rw [Ideal.matmul_constant_zero_apply, ← Equiv.sum_comp (contrEquiv1 (DotDims.plain M K N) K (contr_rank M K N) (contr_size M K N)).symm]
  refine Finset.sum_congr rfl fun k _ => ?_
  rw [lhsIdx_eq, rhsIdx_eq]

end Idealize.ShloMosaic.PlainMatmul

end
-- ==== Proof.Region0Payload.lean ====
/-
  The first dense layer's block computation read at one entry.

  On a block of 5000 rows the kernel computes, at row `p` and channel `q`,
      max ((∑ k, A (p, k) * Wl (k, q)) + (∑ k, X (p, k) * Wr (k, q)) + b q) 0,
  where `A` is the block of aggregated neighbour features and `X` the block of the nodes' own features. On the
  extended reals the narrowing of the operands to a 16-bit format is the identity, each product into the zero
  matrix is the plain sum over the inner axis, the bias row is broadcast down the rows, and the scalar zero of
  the activation is `0`.
-/
import proofs.«165609_j13305808683556_1_alg».proof.Proof.Gen.KernelIdeal.Skeleton
import proofs.«165609_j13305808683556_1_alg».proof.Proof.LibPlainMatmulFmt
import Idealize.ShloMosaic.Lib.ValueLayout
import Idealize.ShloMosaic.Lib.Pipeline.Value

noncomputable section

namespace Cert.KernelIdeal.Region0

open Idealize.ShloMosaic Idealize.ShloMosaic.ValueIdx
open Cert.KernelIdeal

/-- A product of two narrowed operands into the zero matrix, at `(p, q)`: the sum over the inner axis of the
    operands' products (the narrowing is the identity on extended reals). -/
theorem narrowed_product_apply (a : Vec Ideal S5000x19 .f32) (w : Vec Ideal S19x128 .f32)
    (h : FTy.bits .bf16 < FTy.bits .f32) (p : Fin 5000) (q : Fin 128) :
    matmul dot_S5000x19_S19x128_S5000x128_1_0_0_1_n_n none
        (truncf (F := Ideal) .bf16 a h) (truncf (F := Ideal) .bf16 w h)
        (constant (F := Ideal) S5000x128 .f32 0x00000000#32) (ix2 p q)
      = ∑ k : Fin 19, a (ix2 p k) * w (ix2 k q) :=
  PlainMatmul.matmul_zero_apply_fmt 5000 19 128 none
    (truncf (F := Ideal) .bf16 a h) (truncf (F := Ideal) .bf16 w h) p q

/-- The bias vector cast to one row and broadcast down the rows, at `(p, q)`: the bias at `q`. -/
theorem bias_apply (b : Vec Ideal S128 .f32) (h1 : S128.ShapeCasts S1x128) (h2 : S1x128.Broadcasts S5000x128)
    (p : Fin 5000) (q : Fin 128) :
    broadcastTo S5000x128 (shapeCast S1x128 b h1) h2 (ix2 p q) = b (ix1 q) :=
  (broadcastTo_1b_ab_apply _ _ p q).trans (shapeCast_a_1a_apply b _ 0 q)

/-- The block computation at `(p, q)`. -/
theorem payload_apply (v0 v3 : Vec Ideal S5000x19 .f32) (v5 v7 : Vec Ideal S19x128 .f32) (v12 : Vec Ideal S128 .f32)
    (p : Fin 5000) (q : Fin 128) :
    Gen.k0_pay1 (F := Ideal) v0 v3 v5 v7 v12 (ix2 p q)
      = max ((∑ k : Fin 19, v0 (ix2 p k) * v5 (ix2 k q)) + (∑ k : Fin 19, v3 (ix2 p k) * v7 (ix2 k q)) + v12 (ix1 q)) 0 := by
  unfold Gen.k0_pay1
  rw [shapeCast_self]
  show max (matmul dot_S5000x19_S19x128_S5000x128_1_0_0_1_n_n none
        (truncf (F := Ideal) .bf16 v0 Gen.bitsLt_bf16_f32) (truncf (F := Ideal) .bf16 v5 Gen.bitsLt_bf16_f32)
        (constant (F := Ideal) S5000x128 .f32 0x00000000#32) (ix2 p q)
      + matmul dot_S5000x19_S19x128_S5000x128_1_0_0_1_n_n none
        (truncf (F := Ideal) .bf16 v3 Gen.bitsLt_bf16_f32) (truncf (F := Ideal) .bf16 v7 Gen.bitsLt_bf16_f32)
        (constant (F := Ideal) S5000x128 .f32 0x00000000#32) (ix2 p q)
      + broadcastTo S5000x128 (shapeCast S1x128 v12 Gen.shapeCasts_S128_S1x128) Gen.broadcasts_S1x128_S5000x128 (ix2 p q))
      (Ideal.ofBits .f32 0x00000000#32) = _
  rw [narrowed_product_apply, narrowed_product_apply, bias_apply, Ideal.ofBits_zero_f32]

end Cert.KernelIdeal.Region0

end
-- ==== Proof.Spec.lean ====
/-
  Two-layer GraphSAGE with mean aggregation, written as functions of arrays of extended reals.

  Nodes are rows `r < 100000`. A layer takes the aggregated neighbour features `M` and the node's own features
  `X` (both `[100000, C]`), two weight matrices `Wl, Wr : [C, D]` and a bias `b : [D]`, and produces at node `r` and
  channel `e`
      lin r e = (∑ k, M (r, k) * Wl (k, e)) + (∑ k, X (r, k) * Wr (k, e)) + b e.
  Layer 1 (`C = 19`, `D = 128`) applies `max · 0`; layer 2 (`C = 128`, `D = 4`) a log-softmax over the four
  channels of a row, in the form "subtract (row maximum + log of the sum of shifted exponentials)".
  Indices are built with the literal-size constructors `ix1`, `ix2`, so every coordinate has a literal `Fin` type.
-/
import Idealize.ShloMosaic.Lib.ValueIdx
import Idealize.ShloMosaic.PureOps.Ideal.Laws

noncomputable section

namespace Cert.SageSpec

open Idealize.ShloMosaic Idealize.ShloMosaic.ValueIdx

/-- Layer 1 before its activation, at node `r` and channel `e`. -/
def lin1 (M X : (⟨2, ![100000, 19]⟩ : Shape).Idx → EReal) (Wl Wr : (⟨2, ![19, 128]⟩ : Shape).Idx → EReal)
    (b : (⟨1, ![128]⟩ : Shape).Idx → EReal) (r : Fin 100000) (e : Fin 128) : EReal :=
  (∑ k : Fin 19, M (ix2 r k) * Wl (ix2 k e)) + (∑ k : Fin 19, X (ix2 r k) * Wr (ix2 k e)) + b (ix1 e)

/-- Layer 1: the hidden features, `max (lin1 r e) 0`. -/
def hidden (M X : (⟨2, ![100000, 19]⟩ : Shape).Idx → EReal) (Wl Wr : (⟨2, ![19, 128]⟩ : Shape).Idx → EReal)
    (b : (⟨1, ![128]⟩ : Shape).Idx → EReal) : (⟨2, ![100000, 128]⟩ : Shape).Idx → EReal :=
  fun i => max (lin1 M X Wl Wr b (i 0) (i 1)) 0

/-- Layer 2 before its activation, at node `r` and class `e`. -/
def lin2 (M H : (⟨2, ![100000, 128]⟩ : Shape).Idx → EReal) (Wl Wr : (⟨2, ![128, 4]⟩ : Shape).Idx → EReal)
    (b : (⟨1, ![4]⟩ : Shape).Idx → EReal) (r : Fin 100000) (e : Fin 4) : EReal :=
  (∑ k : Fin 128, M (ix2 r k) * Wl (ix2 k e)) + (∑ k : Fin 128, H (ix2 r k) * Wr (ix2 k e)) + b (ix1 e)

/-- The maximum of a row of four entries, folded from `-∞`. -/
def rowMax (A : Fin 4 → EReal) : EReal := (Finset.univ : Finset (Fin 4)).fold max ⊥ A

/-- Log-softmax of a row of four entries at entry `e`: the entry minus (row maximum + log of the sum of the
    exponentials of the entries shifted by the row maximum). -/
def logSoftmax (A : Fin 4 → EReal) (e : Fin 4) : EReal :=
  A e - (rowMax A + Ideal.log (∑ j : Fin 4, Ideal.exp (A j - rowMax A)))

/-- Layer 2: the class log-probabilities. -/
def out (M H : (⟨2, ![100000, 128]⟩ : Shape).Idx → EReal) (Wl Wr : (⟨2, ![128, 4]⟩ : Shape).Idx → EReal)
    (b : (⟨1, ![4]⟩ : Shape).Idx → EReal) : (⟨2, ![100000, 4]⟩ : Shape).Idx → EReal :=
  fun i => logSoftmax (fun j => lin2 M H Wl Wr b (i 0) j) (i 1)

end Cert.SageSpec

end
-- ==== Proof.Region0Block.lean ====
/-
  The first dense layer, block by block.

  The region runs the block computation at 20 points; at point `t` the two feature windows and the output window
  hold rows `5000 t … 5000 t + 4999` of their arrays, and the two weight windows and the bias window hold their whole
  arrays. So what the body leaves in the output block at row `p` and channel `q` is the hidden layer of the arrays at
  row `5000 t + p` and channel `q`, and what point `t` writes back is block `t` of the hidden layer.
-/
import proofs.«165609_j13305808683556_1_alg».proof.Proof.Region0Payload
import proofs.«165609_j13305808683556_1_alg».proof.Proof.Gen.KernelIdeal.Frame
import proofs.«165609_j13305808683556_1_alg».proof.Proof.Spec
import Idealize.ShloMosaic.Lib.Pipeline.Value

noncomputable section

namespace Cert.KernelIdeal.Region0

open Idealize.ShloMosaic Idealize.ShloMosaic.TcCoe Idealize.ShloMosaic.ValueIdx
open Idealize.SL.Sem
open Idealize.ShloMosaic.Pipeline (Dat)
open Cert.KernelIdeal

theorem hz2 : (![0, 0] : Fin 2 → Nat) = fun _ => 0 := funext fun a => by fin_cases a <;> rfl
theorem hz1 : (![0] : Fin 1 → Nat) = fun _ => 0 := funext fun a => by fin_cases a; rfl

/-- What the body leaves in the output block, at `(p, q)`: the block computation of the five input blocks. -/
theorem out_apply (x0 x1 : Vec Ideal S5000x19 .f32) (x2 x3 : Vec Ideal S19x128 .f32) (x4 : Vec Ideal S128 .f32)
    (p : Fin 5000) (q : Fin 128) :
    Gen.out0_5 (F := Ideal) x0 x1 x2 x3 x4 (ix2 p q)
      = max ((∑ k : Fin 19, x0 (ix2 p k) * x2 (ix2 k q)) + (∑ k : Fin 19, x1 (ix2 p k) * x3 (ix2 k q)) + x4 (ix1 q)) 0 := by
  unfold Gen.out0_5
  rw [View.canon_unit_zero hz2]
  simp only [View.ld_unit_zero (S := S5000x19) hz2, View.ld_unit_zero (S := S19x128) hz2, View.ld_unit_zero (S := S128) hz1]
  exact payload_apply x0 x1 x2 x3 x4 p q

/-- When row `p` of the two feature blocks is row `r` of the feature arrays and the weight and bias blocks are the
    whole arrays, the output block at `(p, q)` is the hidden layer at `(r, q)`. -/
theorem out_eq_hidden (x0 x1 : Vec Ideal S5000x19 .f32) (x2 x3 : Vec Ideal S19x128 .f32) (x4 : Vec Ideal S128 .f32)
    (A X : S100000x19.Idx → EReal) (Wl Wr : S19x128.Idx → EReal) (b : S128.Idx → EReal)
    (p : Fin 5000) (q : Fin 128) (r : Fin 100000)
    (h0 : ∀ k : Fin 19, x0 (ix2 p k) = A (ix2 r k)) (h1 : ∀ k : Fin 19, x1 (ix2 p k) = X (ix2 r k))
    (h2 : ∀ k : Fin 19, x2 (ix2 k q) = Wl (ix2 k q)) (h3 : ∀ k : Fin 19, x3 (ix2 k q) = Wr (ix2 k q))
    (h4 : x4 (ix1 q) = b (ix1 q)) :
    Gen.out0_5 (F := Ideal) x0 x1 x2 x3 x4 (ix2 p q) = Cert.SageSpec.hidden A X Wl Wr b (ix2 r q) := by
  rw [out_apply]
  simp only [h0, h1, h2, h3, h4]
  rfl

/-- The windows' index maps, decided over the grid: the feature and output windows take block `t` of rows at point `t`,
    the weight and bias windows their whole arrays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

section Blocks
variable (V : (c : Dev nD) → (b : Ref sig .tc) → Buf (Elt Ideal) ((c : Thread nD τ).loc b))

/-- Row `p` of the aggregated-feature block at point `t` is row `t * 5000 + p` of the array. -/
theorem blockA_apply (c : Dev nD) (t : Fin cfg0.N) (p : Fin 5000) (k : Fin 19) (r : Fin 100000)
    (hr : r.val = t.val * 5000 + p.val) :
    Gen.iblk0 V c 0 t (ix2 p k) = (V c main_v24 : S100000x19.Idx → EReal) (ix2 r k) := by
  obtain ⟨e0, e1, -⟩ := idx_facts t
  unfold Gen.iblk0
  show (V c main_v24 : S100000x19.Idx → EReal) (((cfg0.win 0).blk t).view.emb (ix2 p k)) = _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 19 + 1 * k.val = k.val; rw [e1]; omega

/-- Row `p` of the own-feature block at point `t` is row `t * 5000 + p` of the array. -/
theorem blockX_apply (c : Dev nD) (t : Fin cfg0.N) (p : Fin 5000) (k : Fin 19) (r : Fin 100000)
    (hr : r.val = t.val * 5000 + p.val) :
    Gen.iblk0 V c 1 t (ix2 p k) = (V c main_arg0 : S100000x19.Idx → EReal) (ix2 r k) := by
  obtain ⟨-, -, e0, e1, -⟩ := idx_facts t
  unfold Gen.iblk0
  show (V c main_arg0 : S100000x19.Idx → EReal) (((cfg0.win 1).blk t).view.emb (ix2 p k)) = _
  congr 1
  funext a
  apply Fin.ext
  match a with
  | ⟨0, _⟩ => show win0_1.index t (0 : Fin 2) * 5000 + 1 * p.val = r.val; rw [e0, hr]; omega
  | ⟨1, _⟩ => show win0_1.index t (1 : Fin 2) * 19 + 1 * k.val = k.val; rw [e1]; omega

/-- The left weight block at any point is the whole array. -/
theorem blockWl_apply (c : Dev nD) (t : Fin cfg0.N) (k : Fin 19) (q : Fin 128) :
    Gen.iblk0 V c 2 t (ix2 k q) = (V c main_arg2 : S19x128.Idx → EReal) (ix2 k q) := by
  obtain ⟨-, -, -, -, e0, e1, -⟩ := idx_facts t
  unfold Gen.iblk0
  show (V c main_arg2 : S19x128.Idx → EReal) (((cfg0.win 2).blk t).view.emb (ix2 k q)) = _
  congr 1
  funext a
  apply Fin.ext
  match a with
  | ⟨0, _⟩ => show win0_2.index t (0 : Fin 2) * 19 + 1 * k.val = k.val; rw [e0]; omega
  | ⟨1, _⟩ => show win0_2.index t (1 : Fin 2) * 128 + 1 * q.val = q.val; rw [e1]; omega

/-- The right weight block at any point is the whole array. -/
theorem blockWr_apply (c : Dev nD) (t : Fin cfg0.N) (k : Fin 19) (q : Fin 128) :
    Gen.iblk0 V c 3 t (ix2 k q) = (V c main_arg3 : S19x128.Idx → EReal) (ix2 k q) := by
  obtain ⟨-, -, -, -, -, -, e0, e1, -⟩ := idx_facts t
  unfold Gen.iblk0
  show (V c main_arg3 : S19x128.Idx → EReal) (((cfg0.win 3).blk t).view.emb (ix2 k q)) = _
  congr 1
  funext a
  apply Fin.ext
  match a with
  | ⟨0, _⟩ => show win0_3.index t (0 : Fin 2) * 19 + 1 * k.val = k.val; rw [e0]; omega
  | ⟨1, _⟩ => show win0_3.index t (1 : Fin 2) * 128 + 1 * q.val = q.val; rw [e1]; omega

/-- The bias block at any point is the whole vector. -/
theorem blockB_apply (c : Dev nD) (t : Fin cfg0.N) (q : Fin 128) :
    Gen.iblk0 V c 4 t (ix1 q) = (V c main_arg4 : S128.Idx → EReal) (ix1 q) := by
  obtain ⟨-, -, -, -, -, -, -, -, e0, -⟩ := idx_facts t
  unfold Gen.iblk0
  show (V c main_arg4 : S128.Idx → EReal) (((cfg0.win 4).blk t).view.emb (ix1 q)) = _
  congr 1
  funext a
  apply Fin.ext
  match a with
  | ⟨0, _⟩ => show win0_4.index t (0 : Fin 1) * 128 + 1 * q.val = q.val; rw [e0]; omega

/-- What point `t` writes back is block `t` of the hidden layer of the arrays as the region finds them. -/
theorem flushed_eq (c : Dev nD) (t : Fin cfg0.N) :
    (Gen.dat0 (F := Ideal) V c).flushed 5 t = ((cfg0.win 5).blk t).view.read (Elt Ideal)
      (Cert.SageSpec.hidden (V c main_v24) (V c main_arg0) (V c main_arg2) (V c main_arg3) (V c main_arg4)) := by
  show (cfg0.win 5).cut (grid0.coords t) ((Gen.dat0 V c).after 5 t) = _
  rw [Gen.after0_5]
  funext j
  have hj0 : (j 0).val < 5000 := (j 0).isLt
  have hj1 : (j 1).val < 128 := (j 1).isLt
  have hN : grid0.N = 20 := Gen.N_0
  have ht : t.val < 20 := hN ▸ t.isLt
  obtain ⟨p, hp⟩ : ∃ p : Fin 5000, p.val = (j 0).val := ⟨⟨(j 0).val, hj0⟩, rfl⟩
  obtain ⟨q, hq⟩ : ∃ q : Fin 128, q.val = (j 1).val := ⟨⟨(j 1).val, hj1⟩, rfl⟩
  obtain ⟨r, hr⟩ : ∃ r : Fin 100000, r.val = t.val * 5000 + p.val := ⟨⟨t.val * 5000 + p.val, by omega⟩, rfl⟩
  have hx : (cfg0.win 5).xinj (grid0.coords t) j = ix2 p q := by
    funext a; apply Fin.ext
    match a with
    | ⟨0, _⟩ => exact hp.symm
    | ⟨1, _⟩ => exact hq.symm
  obtain ⟨-, -, -, -, -, -, -, -, -, e0, e1⟩ := idx_facts t
  have he : ((cfg0.win 5).blk t).view.emb j = ix2 r q := by
    funext a; apply Fin.ext
    match a with
    | ⟨0, _⟩ => show win0_5.index t (0 : Fin 2) * 5000 + 1 * (j 0).val = r.val; rw [e0, hr, hp]; omega
    | ⟨1, _⟩ => show win0_5.index t (1 : Fin 2) * 128 + 1 * (j 1).val = q.val; rw [e1, hq]; omega
  show Gen.out0_5 (Gen.iblk0 V c 0 t) (Gen.iblk0 V c 1 t) (Gen.iblk0 V c 2 t) (Gen.iblk0 V c 3 t) (Gen.iblk0 V c 4 t)
      ((cfg0.win 5).xinj (grid0.coords t) j)
    = Cert.SageSpec.hidden (V c main_v24) (V c main_arg0) (V c main_arg2) (V c main_arg3) (V c main_arg4)
      (((cfg0.win 5).blk t).view.emb j)
  rw [hx, he]
  exact out_eq_hidden (Gen.iblk0 V c 0 t) (Gen.iblk0 V c 1 t) (Gen.iblk0 V c 2 t) (Gen.iblk0 V c 3 t) (Gen.iblk0 V c 4 t)
    (V c main_v24) (V c main_arg0) (V c main_arg2) (V c main_arg3) (V c main_arg4) p q r
    (fun k => blockA_apply V c t p k r hr) (fun k => blockX_apply V c t p k r hr)
    (fun k => blockWl_apply V c t k q) (fun k => blockWr_apply V c t k q) (blockB_apply V c t q)

end Blocks

end Cert.KernelIdeal.Region0

end
-- ==== Proof.Region0Array.lean ====
/-
  The first dense layer's output array after the region.

  Every point writes its output block back, and row `r` of the output array lies in the block of point `r / 5000`:
  the blocks cover the array, each holding its part of the hidden layer, so the array ends holding the hidden layer of
  the arrays as the region finds them.
-/
import proofs.«165609_j13305808683556_1_alg».proof.Proof.Region0Block

noncomputable section

namespace Cert.KernelIdeal.Region0

open Idealize.ShloMosaic Idealize.ShloMosaic.TcCoe Idealize.ShloMosaic.ValueIdx
open Idealize.SL.Sem
open Idealize.ShloMosaic.Pipeline (Dat)
open Cert.KernelIdeal

/-- An index of the array is in point `t`'s block iff each coordinate is in the block's range on its axis. -/
theorem mem_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- Every row `r` is in the block of point `r / 5000`, which is written back. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : grid0.N = 20 := Gen.N_0
  obtain ⟨t, ht⟩ : ∃ t : Fin cfg0.N, t.val = (i 0).val / 5000 :=
    ⟨⟨(i 0).val / 5000, by show (i 0).val / 5000 < grid0.N; rw [hN]; omega⟩, rfl⟩
  obtain ⟨-, -, -, -, -, -, -, -, -, e0, e1⟩ := idx_facts t
  refine ⟨t, Gen.flush0_5 t, ?_⟩
  rw [mem_block]
  intro a
  match a with
  | ⟨0, _⟩ => show win0_5.index t (0 : Fin 2) * 5000 ≤ (i 0).val ∧ (i 0).val < win0_5.index t (0 : Fin 2) * 5000 + 5000; rw [e0, ht]; omega
  | ⟨1, _⟩ => show win0_5.index t (1 : Fin 2) * 128 ≤ (i 1).val ∧ (i 1).val < win0_5.index t (1 : Fin 2) * 128 + 128; rw [e1]; omega

/-- The output array after the region: the hidden layer of the arrays as the region finds them. -/
theorem array_eq (V : (c : Dev nD) → (b : Ref sig .tc) → Buf (Elt Ideal) ((c : Thread nD τ).loc b)) (c : Dev nD) :
    (Gen.dat0 (F := Ideal) V c).arrAt 5 cfg0.N
      = Cert.SageSpec.hidden (V c main_v24) (V c main_arg0) (V c main_arg2) (V c main_arg3) (V c main_arg4) :=
  (Gen.dat0 (F := Ideal) V c).arrAt_eq_of_cover 5
    (Cert.SageSpec.hidden (V c main_v24) (V c main_arg0) (V c main_arg2) (V c main_arg3) (V c main_arg4))
    (fun t _ => flushed_eq V c t) cover

end Cert.KernelIdeal.Region0

end
-- ==== Proof.Algebra.lean ====
/-
  The algebra the two programs differ by, on the extended reals.

  * An extended real "is a real" when it is the image of a real number. Sums, products, maxima of reals are reals;
    the quotient of a real by a nonzero real is a real; a gather re-indexes an array, and an accumulating scatter
    adds to each entry a finite sum of update entries, so both keep "every entry is a real".
  * Mean aggregation: `a * (1 / c) = a / c` for every extended real `a` as soon as `c ≠ 0` (here `c = max(count, 1)`).
  * Log-softmax of a row of reals: `(a - m) - L = a - (m + L)` with `m` the row maximum and `L` the log of the sum of
    the shifted exponentials. This regrouping is FALSE at infinities (`m = ⊤`, `L = ⊥`), which is where finiteness
    of the inputs is used.
-/
import proofs.«165609_j13305808683556_1_alg».proof.Proof.Spec

noncomputable section

namespace Cert.SageSpec

open Idealize.ShloMosaic Idealize.ShloMosaic.ValueIdx

/-! ## Being a real -/

/-- The extended real `x` is (the image of) a real number. -/
def IsReal (x : EReal) : Prop := ∃ r : ℝ, x = (r : EReal)

theorem IsReal.coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.ne_bot {x : EReal} (hx : IsReal x) : x ≠ ⊥ := by
  obtain ⟨a, rfl⟩ := hx; exact EReal.coe_ne_bot a

theorem IsReal.sum {ι : Type*} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The coercion of a finite sum of reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of a real by a nonzero real is a real. -/
theorem IsReal.div {x c : EReal} (hx : IsReal x) (hc : IsReal c) (h0 : c ≠ 0) : IsReal (Ideal.div x c) := by
  obtain ⟨a, rfl⟩ := hx; obtain ⟨b, rfl⟩ := hc
  have hb : b ≠ 0 := fun h => h0 (by rw [h]; rfl)
  rw [Ideal.div_coe hb]
  exact (IsReal.coe a).mul (IsReal.coe _)

/-! ## The float patterns the programs use -/

theorem ofBits_one : Ideal.ofBits .f32 0x3F800000#32 = 1 := by
  simp [Ideal.ofBits, Ideal.ieee, -EReal.coe_mul]; norm_num

theorem ofBits_neg_inf : Ideal.ofBits .f32 0xFF800000#32 = ⊥ := by
  simp [Ideal.ofBits, Ideal.ieee]

theorem ofBits_pos_inf : Ideal.ofBits .f32 0x7F800000#32 = ⊤ := by
  simp [Ideal.ofBits, Ideal.ieee]

/-- An extended real whose absolute value compares below `+∞` is a real. -/
theorem isReal_of_abs_lt_top (x : EReal) (h : Ideal.cmp .olt (max x (-x)) ⊤ = 1#1) : IsReal x := by
  have hlt : max x (-x) < ⊤ := by
    by_contra hn
    simp [Ideal.cmp, hn] at h
  induction x using EReal.rec with
  | bot => simp at hlt
  | coe r => exact ⟨r, rfl⟩
  | top => simp at hlt

/-! ## Mean aggregation: times the reciprocal is the quotient -/

theorem mul_one_div (a c : EReal) (hc : c ≠ 0) : a * Ideal.div 1 c = Ideal.div a c := by
  unfold Ideal.div
  rw [if_neg hc, if_neg hc, one_mul]

theorem max_one_ne_zero (x : EReal) : max x 1 ≠ 0 :=
  (lt_of_lt_of_le zero_lt_one (le_max_right x 1)).ne'

/-! ## Log-softmax of a row of reals -/

theorem rowMax_isReal (A : Fin 4 → EReal) (hA : ∀ j, IsReal (A j)) : IsReal (rowMax A) := by
  classical
  have key : ∀ s : Finset (Fin 4), s.fold max ⊥ A = ⊥ ∨ IsReal (s.fold max ⊥ A) := by
    intro s
    induction s using Finset.induction_on with
    | empty => left; simp
    | insert a s ha ih =>
      right
      rw [Finset.fold_insert ha]
      rcases ih with h | h
      · rw [h, max_eq_left bot_le]; exact hA a
      · exact (hA a).max h
  rcases key Finset.univ with h | h
  · exfalso
    have h0 : A 0 ≤ (Finset.univ : Finset (Fin 4)).fold max ⊥ A :=
      (Finset.le_fold_max (A 0)).mpr (Or.inr ⟨0, Finset.mem_univ _, le_rfl⟩)
    rw [h] at h0
    exact (hA 0).ne_bot (le_bot_iff.mp h0)
  · exact h

/-- The reference's form of the log-softmax — shift by (the maximum against `-∞` of) the row maximum, then subtract
    the log of (zero plus) the sum of the shifted exponentials — is the kernel's form, on a row of reals. -/
theorem logSoftmax_shift (A : Fin 4 → EReal) (hA : ∀ j, IsReal (A j)) (e : Fin 4) :
    (A e - max ⊥ (rowMax A)) - Ideal.log (0 + ∑ j : Fin 4, Ideal.exp (A j - max ⊥ (rowMax A))) = logSoftmax A e := by
  obtain ⟨m, hm⟩ := rowMax_isReal A hA
  choose a ha using hA
  have hexp : ∀ j, Ideal.exp (A j - rowMax A) = ((Real.exp (a j - m) : ℝ) : EReal) := fun j => by
    rw [ha j, hm, ← EReal.coe_sub]; rfl
  have hsum : (∑ j : Fin 4, Ideal.exp (A j - rowMax A)) = ((∑ j : Fin 4, Real.exp (a j - m) : ℝ) : EReal) := by
    rw [coe_sum]; exact Finset.sum_congr rfl fun j _ => hexp j
  have hpos : 0 < ∑ j : Fin 4, Real.exp (a j - m) :=
    Finset.sum_pos (fun j _ => Real.exp_pos _) Finset.univ_nonempty
  have hlog : Ideal.log ((∑ j : Fin 4, Real.exp (a j - m) : ℝ) : EReal)
      = ((Real.log (∑ j : Fin 4, Real.exp (a j - m)) : ℝ) : EReal) := by
    show (if (∑ j : Fin 4, Real.exp (a j - m)) ≤ 0 then (⊥ : EReal) else _) = _
    rw [if_neg (not_le.mpr hpos)]
  unfold logSoftmax
  rw [max_eq_right bot_le, zero_add, hsum, hlog, ha e, hm, ← EReal.coe_sub, ← EReal.coe_sub, ← EReal.coe_add, ← EReal.coe_sub]
  congr 1; ring

/-! ## The layers keep "every entry is a real" -/

theorem lin1_isReal {M X : (⟨2, ![100000, 19]⟩ : Shape).Idx → EReal} {Wl Wr : (⟨2, ![19, 128]⟩ : Shape).Idx → EReal}
    {b : (⟨1, ![128]⟩ : Shape).Idx → EReal} (hM : ∀ i, IsReal (M i)) (hX : ∀ i, IsReal (X i)) (hWl : ∀ i, IsReal (Wl i))
    (hWr : ∀ i, IsReal (Wr i)) (hb : ∀ i, IsReal (b i)) (r : Fin 100000) (e : Fin 128) : IsReal (lin1 M X Wl Wr b r e) :=
  ((IsReal.sum _ _ fun k _ => (hM _).mul (hWl _)).add (IsReal.sum _ _ fun k _ => (hX _).mul (hWr _))).add (hb _)

theorem hidden_isReal {M X : (⟨2, ![100000, 19]⟩ : Shape).Idx → EReal} {Wl Wr : (⟨2, ![19, 128]⟩ : Shape).Idx → EReal}
    {b : (⟨1, ![128]⟩ : Shape).Idx → EReal} (hM : ∀ i, IsReal (M i)) (hX : ∀ i, IsReal (X i)) (hWl : ∀ i, IsReal (Wl i))
    (hWr : ∀ i, IsReal (Wr i)) (hb : ∀ i, IsReal (b i)) (i : (⟨2, ![100000, 128]⟩ : Shape).Idx) :
    IsReal (hidden M X Wl Wr b i) :=
  (lin1_isReal hM hX hWl hWr hb _ _).max isReal_zero

theorem lin2_isReal {M H : (⟨2, ![100000, 128]⟩ : Shape).Idx → EReal} {Wl Wr : (⟨2, ![128, 4]⟩ : Shape).Idx → EReal}
    {b : (⟨1, ![4]⟩ : Shape).Idx → EReal} (hM : ∀ i, IsReal (M i)) (hH : ∀ i, IsReal (H i)) (hWl : ∀ i, IsReal (Wl i))
    (hWr : ∀ i, IsReal (Wr i)) (hb : ∀ i, IsReal (b i)) (r : Fin 100000) (e : Fin 4) : IsReal (lin2 M H Wl Wr b r e) :=
  ((IsReal.sum _ _ fun k _ => (hM _).mul (hWl _)).add (IsReal.sum _ _ fun k _ => (hH _).mul (hWr _))).add (hb _)

/-! ## Gather and accumulating scatter keep "every entry is a real" -/

theorem gather_isReal {s si t : Shape} {w : ℕ} (d : GatherDims s si t) (x : s.Idx → EReal) (idx : IVec si w)
    (hx : ∀ i, IsReal (x i)) (j : t.Idx) : IsReal (Host.gather d x idx j) := hx _

theorem scatterAdd_isReal {s si u : Shape} {w : ℕ} (d : ScatterDims s si u) (x : FVec Ideal s .f32) (idx : IVec si w)
    (upd : FVec Ideal u .f32) (hx : ∀ i, IsReal (x i)) (hu : ∀ j, IsReal (upd j)) (i : s.Idx) :
    IsReal (Host.scatterAdd d x idx upd i) :=
  (hx i).add (IsReal.sum _ _ fun j _ => hu j)

end Cert.SageSpec

end
-- ==== Proof.LibKeepdims.lean ====
/-
  Column ("keepdims") layout operations read at an index given by coordinates.

  A reduction along the last axis of a matrix that keeps the reduced axis as a unit axis is printed as a shape cast of
  the `[a]` result to `[a, 1]` followed, where it is used against the matrix again, by a broadcast of the `[a, 1]`
  column to `[a, b]`. Both operations read the operand at the row of the index: the cast ignores the unit coordinate and
  the broadcast ignores the column coordinate. Stated over literal-size coordinates (`ix1`, `ix2`) so that a lemma
  applies to a printed operation by unification.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Region1Payload.lean ====
/-
  The second dense layer's block arithmetic read at an index.

  On a block of 5000 rows the kernel body computes, from the block `m` of aggregated hidden features, the block `h` of
  the nodes' own hidden features, the weights `wl`, `wr` (`128 × 4`) and the bias `b`, the matrix
      A p e = (∑ k, m (p, k) * wl (k, e)) + (∑ k, h (p, k) * wr (k, e)) + b e
  (two plain matrix products into zero accumulators, whose operands are narrowed to a 16-bit format first: on the
  extended reals the narrowing is the identity), and then the log-softmax of each row of four entries: the row maximum
  (a fold of `max` from `-∞`), kept as a column and broadcast back, the sum over the row of the exponentials of the
  shifted entries, its logarithm added to the maximum, and the result subtracted from the row.
-/
import proofs.«165609_j13305808683556_1_alg».proof.Proof.Gen.KernelIdeal.Skeleton
import proofs.«165609_j13305808683556_1_alg».proof.Proof.Spec
import proofs.«165609_j13305808683556_1_alg».proof.Proof.Algebra
import proofs.«165609_j13305808683556_1_alg».proof.Proof.LibPlainMatmulFmt
import proofs.«165609_j13305808683556_1_alg».proof.Proof.LibKeepdims

noncomputable section

namespace Cert.KernelIdeal.Region1

open Idealize.ShloMosaic Idealize.ShloMosaic.ValueIdx Idealize.SL.Sem
open Cert.KernelIdeal

/-- The index of a `5000 × 4` matrix over row `p` with column `k` inserted is `(p, k)`. -/
theorem lift_row (h : S5000x4.Reduces [1] S5000) (p : Fin 5000) (k : Fin 4) : h.lift (ix1 p) k = ix2 p k :=
  funext fun a => Fin.ext (match a with | ⟨0, _⟩ => rfl | ⟨1, _⟩ => rfl)

/-- The maximum along the rows of a `5000 × 4` matrix, at row `p`: the fold of `max` from `-∞` over the row. -/
theorem rowMax_apply (x : FVec Ideal S5000x4 .f32) (h : S5000x4.Reduces [1] S5000) (hφ : FKind.Formats .f32)
    (hacc : (0xFF800000#32 : BitVec 32) = 0xFF800000#32) (p : Fin 5000) :
    multiReduction (F := Ideal) .maximumf [1] S5000 x 0xFF800000#32 h hφ hacc (ix1 p)
      = Cert.SageSpec.rowMax (fun j => x (ix2 p j)) := by
  refine (Ideal.multiReduction_maximumf_single x _ h hφ hacc (ix1 p)).trans ?_
  have e : (x ∘ h.lift (ix1 p)) = fun j : Fin 4 => x (ix2 p j) := funext fun k => congrArg x (lift_row h p k)
  show (Finset.univ : Finset (Fin 4)).fold max (Ideal.ofBits .f32 0xFF800000#32) (x ∘ h.lift (ix1 p)) = _
  rw [e, Cert.SageSpec.ofBits_neg_inf]
  rfl

/-- The sum along the rows of a `5000 × 4` matrix, at row `p`: the sum over the row. -/
theorem rowSum_apply (x : FVec Ideal S5000x4 .f32) (h : S5000x4.Reduces [1] S5000) (hφ : FKind.Formats .f32)
    (hacc : (0x00000000#32 : BitVec 32) = 0x00000000#32) (p : Fin 5000) :
    multiReduction (F := Ideal) .add [1] S5000 x 0x00000000#32 h hφ hacc (ix1 p) = ∑ j : Fin 4, x (ix2 p j) := by
  refine (Ideal.multiReduction_add_single x _ h hφ hacc (ix1 p)).trans ?_
  exact Finset.sum_congr rfl fun k _ => congrArg x (lift_row h p k)

/-- The linear part at `(p, e)`: two plain products of narrowed operands into zero accumulators, plus the bias row
    broadcast over the block. -/
theorem lin_apply (v0 v3 : Vec Ideal S5000x128 .f32) (v6 v8 : Vec Ideal S128x4 .f32) (v13 : Vec Ideal S4 .f32)
    (hs : S5000x128.ShapeCasts S5000x128) (hlt : FTy.bits .bf16 < FTy.bits .f32)
    (hwf : DotDims.WF S5000x128 S128x4 S5000x4 [1] [0] [0] [1] [] [])
    (hc : S4.ShapeCasts S1x4) (hb : S1x4.Broadcasts S5000x4) (p : Fin 5000) (e : Fin 4) :
    addf (addf
        (matmul (F := Ideal) (⟨[1], [0], [0], [1], [], [], hwf⟩ : DotDims S5000x128 S128x4 S5000x4) none
          (truncf .bf16 (shapeCast S5000x128 v0 hs) hlt) (truncf .bf16 v6 hlt) (constant (F := Ideal) S5000x4 .f32 0x00000000#32))
        (matmul (F := Ideal) (⟨[1], [0], [0], [1], [], [], hwf⟩ : DotDims S5000x128 S128x4 S5000x4) none
          (truncf .bf16 (shapeCast S5000x128 v3 hs) hlt) (truncf .bf16 v8 hlt) (constant (F := Ideal) S5000x4 .f32 0x00000000#32)))
      (broadcastTo S5000x4 (shapeCast S1x4 v13 hc) hb) (ix2 p e)
      = (∑ k : Fin 128, v0 (ix2 p k) * v6 (ix2 k e)) + (∑ k : Fin 128, v3 (ix2 p k) * v8 (ix2 k e)) + v13 (ix1 e) := by
  rw [addf_apply, addf_apply]
  refine congrArg₂ (· + ·) (congrArg₂ (· + ·) ?_ ?_) ?_
  · refine (PlainMatmul.matmul_zero_apply_fmt 5000 128 4 none _ _ p e).trans ?_
    rw [shapeCast_self]
    rfl
  · refine (PlainMatmul.matmul_zero_apply_fmt 5000 128 4 none _ _ p e).trans ?_
    rw [shapeCast_self]
    rfl
  · exact (broadcastTo_1b_ab_apply _ hb p e).trans (shapeCast_a_1a_apply v13 hc 0 e)

/-- The log-softmax part at `(p, q)`, of any `5000 × 4` matrix `x`: the row maximum kept as a column and broadcast
    back, the row sum of the exponentials of the shifted entries, its logarithm added to the maximum column, and that
    column broadcast and subtracted. -/
theorem softmax_apply (x : FVec Ideal S5000x4 .f32) (hr : S5000x4.Reduces [1] S5000) (hφ : FKind.Formats .f32)
    (hm : (0xFF800000#32 : BitVec 32) = 0xFF800000#32) (ha : (0x00000000#32 : BitVec 32) = 0x00000000#32)
    (hc : S5000.ShapeCasts S5000x1) (hb : S5000x1.Broadcasts S5000x4) (p : Fin 5000) (q : Fin 4) :
    subf x (broadcastTo S5000x4
        (addf (shapeCast S5000x1 (multiReduction (F := Ideal) .maximumf [1] S5000 x 0xFF800000#32 hr hφ hm) hc)
          (log (shapeCast S5000x1 (multiReduction (F := Ideal) .add [1] S5000
            (exp (subf x (broadcastTo S5000x4
              (shapeCast S5000x1 (multiReduction (F := Ideal) .maximumf [1] S5000 x 0xFF800000#32 hr hφ hm) hc) hb)))
            0x00000000#32 hr hφ ha) hc))) hb) (ix2 p q)
      = Cert.SageSpec.logSoftmax (fun j => x (ix2 p j)) q := by
  have hmax : ∀ c : Fin 4, broadcastTo S5000x4
      (shapeCast S5000x1 (multiReduction (F := Ideal) .maximumf [1] S5000 x 0xFF800000#32 hr hφ hm) hc) hb (ix2 p c)
        = Cert.SageSpec.rowMax (fun j => x (ix2 p j)) := fun c =>
    (broadcastTo_a1_ab_apply _ hb p c).trans ((shapeCast_a_a1_apply _ hc p 0).trans (rowMax_apply x hr hφ hm p))
  unfold Cert.SageSpec.logSoftmax
  rw [subf_apply]
  refine congrArg (x (ix2 p q) - ·) ?_
  refine (broadcastTo_a1_ab_apply _ hb p q).trans ?_
  rw [addf_apply]
  refine congrArg₂ (· + ·) ((shapeCast_a_a1_apply _ hc p 0).trans (rowMax_apply x hr hφ hm p)) ?_
  show Ideal.log (shapeCast S5000x1 _ hc (ix2 p (0 : Fin 1))) = _
  refine congrArg Ideal.log ?_
  refine (shapeCast_a_a1_apply _ hc p 0).trans ?_
  refine (rowSum_apply _ hr hφ ha p).trans ?_
  refine Finset.sum_congr rfl fun j _ => ?_
  show Ideal.exp (subf x _ (ix2 p j)) = _
  rw [subf_apply, hmax j]

/-- The block arithmetic at `(p, q)`: the log-softmax of row `p` of the linear part. -/
theorem pay_apply (v0 v3 : Vec Ideal S5000x128 .f32) (v6 v8 : Vec Ideal S128x4 .f32) (v13 : Vec Ideal S4 .f32)
    (p : Fin 5000) (q : Fin 4) :
    Gen.k1_pay1 (F := Ideal) v0 v3 v6 v8 v13 (ix2 p q)
      = Cert.SageSpec.logSoftmax (fun j => (∑ k : Fin 128, v0 (ix2 p k) * v6 (ix2 k j))
          + (∑ k : Fin 128, v3 (ix2 p k) * v8 (ix2 k j)) + v13 (ix1 j)) q := by
  unfold Gen.k1_pay1
  refine (softmax_apply _ _ _ _ _ _ _ p q).trans ?_
  refine congrArg (fun A : Fin 4 → EReal => Cert.SageSpec.logSoftmax A q) (funext fun j => ?_)
  exact lin_apply v0 v3 v6 v8 v13 _ _ _ _ _ p j

end Cert.KernelIdeal.Region1

end
-- ==== Proof.Region1Blocks.lean ====
/-
  The second dense layer, block by block.

  The output array has 100000 rows; the grid's point `t` works on rows `5000 t … 5000 t + 4999`: it reads block `t`
  of the aggregated hidden features and of the nodes' own hidden features, the two weight matrices and the bias whole,
  and leaves in the output's staging buffer the log-softmax of the rows of the linear part. So what point `t` writes
  back is block `t` of the layer's whole-array function of the arrays as the region finds them.
-/
import proofs.«165609_j13305808683556_1_alg».proof.Proof.Gen.KernelIdeal.Frame
import proofs.«165609_j13305808683556_1_alg».proof.Proof.Region1Payload

noncomputable section

namespace Cert.KernelIdeal.Region1

open Idealize.ShloMosaic Idealize.ShloMosaic.TcCoe Idealize.ShloMosaic.ValueIdx
open Idealize.SL Idealize.SL.Sem
open Idealize.ShloMosaic.Pipeline (Dat Cfg Window)
open Cert.KernelIdeal

theorem hz2 : (![0, 0] : Fin 2 → Nat) = fun _ => 0 := funext fun a => by fin_cases a <;> rfl
theorem hz1 : (![0] : Fin 1 → Nat) = fun _ => 0 := funext fun a => by fin_cases a; rfl

/-- What the body leaves in the output's staging buffer is the block arithmetic of the loaded blocks: its one store
    covers the buffer and every load reads a whole buffer. -/
theorem out_eq_pay (x0 x1 : Vec Ideal S5000x128 .f32) (x2 x3 : Vec Ideal S128x4 .f32) (x4 : Vec Ideal S4 .f32) :
    Gen.out1_5 (F := Ideal) x0 x1 x2 x3 x4 = Gen.k1_pay1 (F := Ideal) x0 x1 x2 x3 x4 := by
  unfold Gen.out1_5
  rw [View.canon_unit_zero hz2]
  simp only [View.ld_unit_zero (S := S5000x128) hz2, View.ld_unit_zero (S := S128x4) hz2, View.ld_unit_zero (S := S4) hz1]

/-- If the loaded feature blocks are rows `r p` of the arrays `M`, `H` and the other loaded blocks are the arrays
    `Wl`, `Wr`, `b`, the staging buffer holds at `(p, q)` the layer's value at `(r p, q)`. -/
theorem out_block (x0 x1 : Vec Ideal S5000x128 .f32) (x2 x3 : Vec Ideal S128x4 .f32) (x4 : Vec Ideal S4 .f32)
    (M H : S100000x128.Idx → EReal) (Wl Wr : S128x4.Idx → EReal) (b : S4.Idx → EReal) (r : Fin 5000 → Fin 100000)
    (h0 : ∀ (p : Fin 5000) (k : Fin 128), x0 (ix2 p k) = M (ix2 (r p) k))
    (h1 : ∀ (p : Fin 5000) (k : Fin 128), x1 (ix2 p k) = H (ix2 (r p) k))
    (h2 : ∀ (k : Fin 128) (e : Fin 4), x2 (ix2 k e) = Wl (ix2 k e))
    (h3 : ∀ (k : Fin 128) (e : Fin 4), x3 (ix2 k e) = Wr (ix2 k e))
    (h4 : ∀ e : Fin 4, x4 (ix1 e) = b (ix1 e)) (p : Fin 5000) (q : Fin 4) :
    Gen.out1_5 (F := Ideal) x0 x1 x2 x3 x4 (ix2 p q) = Cert.SageSpec.out M H Wl Wr b (ix2 (r p) q) := by
  rw [out_eq_pay, pay_apply]
  show _ = Cert.SageSpec.logSoftmax (fun j => Cert.SageSpec.lin2 M H Wl Wr b (r p) j) q
  refine congrArg (fun A : Fin 4 → EReal => Cert.SageSpec.logSoftmax A q) (funext fun j => ?_)
  unfold Cert.SageSpec.lin2
  simp only [h0, h1, h2, h3, h4]

/-- The printed index maps, decided over the grid: the feature windows and the output window are on block `t` of
    rows, the weights' and the bias's windows on their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The row of the array that row `p` of point `t`'s block is. -/
def rowAt (t : Fin cfg1.N) (p : Fin 5000) : Fin 100000 :=
  ⟨t.val * 5000 + p.val, by have := t.isLt; have hN : cfg1.N = 20 := Gen.N_1; have := p.isLt; omega⟩

section Blocks

variable (V : (c : Dev nD) → (b : Ref sig .tc) → Buf (Elt Ideal) ((c : Thread nD τ).loc b))

/-- Block `t` of the aggregated hidden features is rows `5000 t + p` of their array. -/
theorem iblk0_apply (c : Dev nD) (t : Fin cfg1.N) (p : Fin 5000) (k : Fin 128) :
    Gen.iblk1 (F := Ideal) V c 0 t (ix2 p k) = (V c main_v38 : S100000x128.Idx → EReal) (ix2 (rowAt t p) k) := by
  obtain ⟨e00, e01, -⟩ := idx_facts t
  unfold Gen.iblk1
  show V c main_v38 (((cfg1.win 0).blk t).view.emb (ix2 p k)) = _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- Block `t` of the nodes' own hidden features is rows `5000 t + p` of their array. -/
theorem iblk1_apply (c : Dev nD) (t : Fin cfg1.N) (p : Fin 5000) (k : Fin 128) :
    Gen.iblk1 (F := Ideal) V c 1 t (ix2 p k) = (V c main_v25 : S100000x128.Idx → EReal) (ix2 (rowAt t p) k) := by
  obtain ⟨-, -, e10, e11, -⟩ := idx_facts t
  unfold Gen.iblk1
  show V c main_v25 (((cfg1.win 1).blk t).view.emb (ix2 p k)) = _
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

/-- The one block of the first weight matrix is the matrix. -/
theorem iblk2_apply (c : Dev nD) (t : Fin cfg1.N) (k : Fin 128) (e : Fin 4) :
    Gen.iblk1 (F := Ideal) V c 2 t (ix2 k e) = (V c main_arg5 : S128x4.Idx → EReal) (ix2 k e) := by
  obtain ⟨-, -, -, -, e20, e21, -⟩ := idx_facts t
  unfold Gen.iblk1
  show V c main_arg5 (((cfg1.win 2).blk t).view.emb (ix2 k e)) = _
  refine congrArg _ (funext fun a => Fin.ext ?_)
  match a with
  | ⟨0, _⟩ => show win1_2.index t (0 : Fin 2) * 128 + 1 * k.val = k.val; omega
  | ⟨1, _⟩ => show win1_2.index t (1 : Fin 2) * 4 + 1 * e.val = e.val; omega

/-- The one block of the second weight matrix is the matrix. -/
theorem iblk3_apply (c : Dev nD) (t : Fin cfg1.N) (k : Fin 128) (e : Fin 4) :
    Gen.iblk1 (F := Ideal) V c 3 t (ix2 k e) = (V c main_arg6 : S128x4.Idx → EReal) (ix2 k e) := by
  obtain ⟨-, -, -, -, -, -, e30, e31, -⟩ := idx_facts t
  unfold Gen.iblk1
  show V c main_arg6 (((cfg1.win 3).blk t).view.emb (ix2 k e)) = _
  refine congrArg _ (funext fun a => Fin.ext ?_)
  match a with
  | ⟨0, _⟩ => show win1_3.index t (0 : Fin 2) * 128 + 1 * k.val = k.val; omega
  | ⟨1, _⟩ => show win1_3.index t (1 : Fin 2) * 4 + 1 * e.val = e.val; omega

/-- The one block of the bias is the bias. -/
theorem iblk4_apply (c : Dev nD) (t : Fin cfg1.N) (e : Fin 4) :
    Gen.iblk1 (F := Ideal) V c 4 t (ix1 e) = (V c main_arg7 : S4.Idx → EReal) (ix1 e) := by
  obtain ⟨-, -, -, -, -, -, -, -, e40, -⟩ := idx_facts t
  unfold Gen.iblk1
  show V c main_arg7 (((cfg1.win 4).blk t).view.emb (ix1 e)) = _
  refine congrArg _ (funext fun a => Fin.ext ?_)
  match a with
  | ⟨0, _⟩ => show win1_4.index t (0 : Fin 1) * 4 + 1 * e.val = e.val; omega

/-- What point `t` writes back is block `t` of the layer's function of the arrays as the region finds them. -/
theorem flushed_eq (c : Dev nD) (t : Fin cfg1.N) :
    (Gen.dat1 (F := Ideal) V c).flushed 5 t
      = ((cfg1.win 5).blk t).view.read (Elt Ideal)
          (Cert.SageSpec.out (V c main_v38) (V c main_v25) (V c main_arg5) (V c main_arg6) (V c main_arg7)) := by
  show (cfg1.win 5).cut (grid1.coords t) ((Gen.dat1 (F := Ideal) V c).after 5 t) = _
  rw [Gen.after1_5]
  refine funext fun (j : S5000x4.Idx) => ?_
  obtain ⟨p, q, rfl⟩ : ∃ (p : Fin 5000) (q : Fin 4), j = ix2 p q := ⟨j 0, j 1, eq_ix2 j⟩
  show Gen.out1_5 (F := Ideal) _ _ _ _ _ (ix2 p q)
    = Cert.SageSpec.out (V c main_v38) (V c main_v25) (V c main_arg5) (V c main_arg6) (V c main_arg7)
        (((cfg1.win 5).blk t).view.emb (ix2 p q))
  refine (out_block _ _ _ _ _ (V c main_v38) (V c main_v25) (V c main_arg5) (V c main_arg6) (V c main_arg7) (rowAt t)
    (iblk0_apply V c t) (iblk1_apply V c t) (iblk2_apply V c t) (iblk3_apply V c t) (iblk4_apply V c t) p q).trans ?_
  obtain ⟨-, -, -, -, -, -, -, -, -, e50, e51⟩ := idx_facts t
  refine congrArg _ (funext fun a => Fin.ext ?_)
  match a with
  | ⟨0, _⟩ => show t.val * 5000 + p.val = win1_5.index t (0 : Fin 2) * 5000 + 1 * p.val; omega
  | ⟨1, _⟩ => show q.val = win1_5.index t (1 : Fin 2) * 4 + 1 * q.val; omega

end Blocks

end Cert.KernelIdeal.Region1

end
-- ==== Proof.Region1Array.lean ====
/-
  The second dense layer's output array after the region.

  Every point of the grid writes its block back, and the twenty blocks of 5000 rows tile the 100000 rows of the output
  array: row `r` is in the block of point `r / 5000`. Each written block is the block of the layer's whole-array
  function of the arrays as the region finds them, so the array ends holding that function.
-/
import proofs.«165609_j13305808683556_1_alg».proof.Proof.Region1Blocks

noncomputable section

namespace Cert.KernelIdeal.Region1

open Idealize.ShloMosaic Idealize.ShloMosaic.TcCoe Idealize.ShloMosaic.ValueIdx
open Idealize.SL Idealize.SL.Sem
open Idealize.ShloMosaic.Pipeline (Dat Cfg Window)
open Cert.KernelIdeal

/-- An index of the output array is in point `t`'s block iff each coordinate is in the block's range on its axis. -/
theorem mem_blk (t : Fin cfg1.N) (i : S100000x4.Idx) :
    i ∈ ((cfg1.win 5).blk t).view.set ↔ ∀ a : Fin 2, win1_5.index t a * S5000x4.size a ≤ (i a).val
      ∧ (i a).val < win1_5.index t a * S5000x4.size a + S5000x4.size a := by
  show i ∈ ((View.whole main_v39).slice (win1_5.rect t)).set ↔ _
  rw [View.set_slice_whole, Rect.mem_set_unit]
  exact Iff.rfl

/-- Every index of the output array is in the block of a point that writes back: the point of its row's block. -/
theorem cover (i : S100000x4.Idx) :
    ∃ t : Fin cfg1.N, (cfg1.win 5).flush t = true ∧ i ∈ ((cfg1.win 5).blk t).view.set := by
  have hi0 : (i 0).val < 100000 := (i 0).isLt
  have hi1 : (i 1).val < 4 := (i 1).isLt
  have hN : cfg1.N = 20 := Gen.N_1
  obtain ⟨t, ht⟩ : ∃ t : Fin cfg1.N, t.val = (i 0).val / 5000 := ⟨⟨(i 0).val / 5000, by omega⟩, rfl⟩
  obtain ⟨-, -, -, -, -, -, -, -, -, e50, e51⟩ := idx_facts t
  refine ⟨t, Gen.flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 4 ≤ (i 1).val ∧ (i 1).val < win1_5.index t (1 : Fin 2) * 4 + 4
    omega

/-- The output array after the region: the layer's function of the arrays as the region finds them. -/
theorem array_eq (V : (c : Dev nD) → (b : Ref sig .tc) → Buf (Elt Ideal) ((c : Thread nD τ).loc b)) (c : Dev nD) :
    (Gen.dat1 (F := Ideal) V c).arrAt 5 cfg1.N
      = Cert.SageSpec.out (V c main_v38) (V c main_v25) (V c main_arg5) (V c main_arg6) (V c main_arg7) :=
  (Gen.dat1 (F := Ideal) V c).arrAt_eq_of_cover 5
    (Cert.SageSpec.out (V c main_v38) (V c main_v25) (V c main_arg5) (V c main_arg6) (V c main_arg7))
    (fun t _ => flushed_eq V c t) cover

end Cert.KernelIdeal.Region1

end
-- ==== Proof.LibMeanDiv.lean ====
/-
  A mean taken by multiplying with a reciprocal is the quotient.

  Mean aggregation over a graph divides, per node `r`, a row of accumulated features by the clamped number of
  contributions `max (count r) 1`. One program computes the reciprocal `1 / max (count r) 1` once per node,
  broadcasts it along the feature axis and multiplies; another broadcasts the clamped count and divides. At the ideal
  values the two arrays agree at every entry, for every extended-real accumulated value: both broadcasts read their
  operand at the entry's row, the divisor `max (count r) 1 ≥ 1` is never zero, and off zero
  `a * (1 / c) = a * c⁻¹ = a / c`.
-/
import Idealize.ShloMosaic.Lib.ValueIdx
import Idealize.ShloMosaic.PureOps.Ideal.Laws

noncomputable section

namespace Idealize.ShloMosaic.MeanDiv

open Idealize.ShloMosaic Idealize.ShloMosaic.ValueIdx

/-- Off zero, times the reciprocal is the quotient, for every extended real `a` (infinite ones included). -/
theorem mul_one_div (a c : EReal) (hc : c ≠ 0) : a * Ideal.div 1 c = Ideal.div a c := by
  unfold Ideal.div
  rw [if_neg hc, if_neg hc, one_mul]

/-- A value clamped below by one is not zero. -/
theorem max_one_ne_zero (x : EReal) : max x 1 ≠ 0 :=
  (lt_of_lt_of_le zero_lt_one (le_max_right x 1)).ne'

/-- `agg` times the broadcast of `1 / max cnt 1` is `agg` divided by the broadcast of `max cnt 1`, as arrays of
    extended reals: `agg : [a, b]`, `cnt : [a]`, the per-row factor broadcast `[a] → [a, 1] → [a, b]`, the one a splat
    constant of a word `w` that encodes `1`. -/
theorem mulf_recip_eq_divf {a b : ℕ} (w : BitVec FTy.f32.bits) (hw : Ideal.ofBits .f32 w = 1)
    (agg : FVec Ideal ⟨2, ![a, b]⟩ .f32) (cnt : FVec Ideal ⟨1, ![a]⟩ .f32)
    (h0 : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1]) :
    mulf agg (broadcastInDim ⟨2, ![a, b]⟩ ![0, 1] h2 (broadcastInDim ⟨2, ![a, 1]⟩ ![0] h1
        (Host.divf (broadcastInDim ⟨1, ![a]⟩ ![] h0 (constant (F := Ideal) ⟨0, ![]⟩ .f32 w))
          (maximumf cnt (broadcastInDim ⟨1, ![a]⟩ ![] h0 (constant (F := Ideal) ⟨0, ![]⟩ .f32 w))))))
      = Host.divf agg (broadcastInDim ⟨2, ![a, b]⟩ ![0, 1] h2 (broadcastInDim ⟨2, ![a, 1]⟩ ![0] h1
        (maximumf cnt (broadcastInDim ⟨1, ![a]⟩ ![] h0 (constant (F := Ideal) ⟨0, ![]⟩ .f32 w))))) := by
  funext i
  -- both broadcasts read at one index `k` of `[a]` (the entry's row); there the two sides are scalars
  show agg i * Ideal.div (Ideal.ofBits .f32 w) (max (cnt _) (Ideal.ofBits .f32 w))
    = Ideal.div (agg i) (max (cnt _) (Ideal.ofBits .f32 w))
  rw [hw]
  exact mul_one_div _ _ (max_one_ne_zero _)

end Idealize.ShloMosaic.MeanDiv

end
-- ==== Proof.MeanBridge.lean ====
/-
  Mean aggregation, the kernel program's form against the reference program's.

  Both programs aggregate a feature array over the edge list by gathering the rows at the edge sources (a negative
  source shifted by the number of nodes), scatter-adding them at the edge destinations into zeros, and dividing each
  node's row by `max (in-degree, 1)`, the in-degree obtained by scatter-adding ones at the destinations. The kernel
  program multiplies by the reciprocal `1 / max (in-degree, 1)`, computed once; the reference program divides by the
  clamped in-degree, recomputed for each layer. At the ideal values the two are equal for every input: the clamped
  in-degree is at least one, hence not zero, and off zero `a * (1 / c) = a / c` for every extended real `a`. The rest
  of the two terms is the same composition of the same operations on the same shapes.
-/
import proofs.«165609_j13305808683556_1_alg».proof.Proof.RefRead
import proofs.«165609_j13305808683556_1_alg».proof.Proof.KernelHost
import proofs.«165609_j13305808683556_1_alg».proof.Proof.LibMeanDiv
import proofs.«165609_j13305808683556_1_alg».proof.Proof.Algebra

noncomputable section

namespace Cert.MeanBridge

open Idealize.ShloMosaic
open Cert.KernelIdeal Cert.KernelIdeal.Facts₀ Cert.KernelIdeal.Facts
open Cert.KernelIdeal.HostTerms
open Cert.ReferenceIdeal.Read

/-! ## The kernel program's mean as a quotient -/

/-- The clamped in-degree `max (in-degree, 1)` per node. -/
def degClamp (E : IVec S2x1600000 32) : FVec Ideal S100000 .f32 :=
  maximumf (degree (F := Ideal) E) (broadcastInDim S100000 ![] bcast_S_S100000 (constant S_ .f32 0x3F800000#32))

/-- Mean aggregation of 19 features: the scatter-added rows divided by the clamped in-degree. -/
theorem mean19_div (E : IVec S2x1600000 32) (X : FVec Ideal S100000x19 .f32) :
    mean19 (F := Ideal) E X
      = Host.divf
          (Host.scatterAdd scatter_S100000x19_S1600000x1_S1600000x19_1_0_0_1
            (broadcastInDim S100000x19 ![] bcast_S_S100000x19 (constant S_ .f32 0x00000000#32)) (dstIdx E)
            (Host.gather gather_S100000x19_S1600000x1_S1600000x19_1_0_n_n_0_1_119 X (srcIdx E)))
          (broadcastInDim S100000x19 ![0, 1] bcast_S100000x1_S100000x19_0_1
            (broadcastInDim S100000x1 ![0] bcast_S100000_S100000x1_0 (degClamp E))) := by
  unfold mean19 degInv degClamp
  exact MeanDiv.mulf_recip_eq_divf _ Cert.SageSpec.ofBits_one _ _ _ _ _

/-- Mean aggregation of 128 features: the scatter-added rows divided by the clamped in-degree. -/
theorem mean128_div (E : IVec S2x1600000 32) (H : FVec Ideal S100000x128 .f32) :
    mean128 (F := Ideal) E H
      = Host.divf
          (Host.scatterAdd scatter_S100000x128_S1600000x1_S1600000x128_1_0_0_1
            (broadcastInDim S100000x128 ![] bcast_S_S100000x128 (constant S_ .f32 0x00000000#32)) (dstIdx E)
            (Host.gather gather_S100000x128_S1600000x1_S1600000x128_1_0_n_n_0_1_1128 H (srcIdx E)))
          (broadcastInDim S100000x128 ![0, 1] bcast_S100000x1_S100000x128_0_1
            (broadcastInDim S100000x1 ![0] bcast_S100000_S100000x1_0 (degClamp E))) := by
  unfold mean128 degInv degClamp
  exact MeanDiv.mulf_recip_eq_divf _ Cert.SageSpec.ofBits_one _ _ _ _ _

/-! ## Against the reference program's stages

In quotient form the kernel program's mean is the reference program's stage operation by operation: the same slices,
casts, broadcasts, comparison, shift, selection, gather and scatter-adds, on equal shapes and equal dimension records. -/

/-- Layer 1: the kernel program's mean of the node features is the reference program's. -/
theorem mean19_eq (x0 : (⟨Cert.ReferenceIdeal.S100000x19, .f32⟩ : BufTy).Contents (Elt Ideal))
    (x1 : (⟨Cert.ReferenceIdeal.S2x1600000, .i32⟩ : BufTy).Contents (Elt Ideal)) :
    mean19 (F := Ideal) x1 x0 = val_main_v22 (F := Ideal) x0 x1 := by
  rw [mean19_div]
  rfl

/-- Layer 2: the kernel program's mean of the reference program's hidden features is the reference program's. -/
theorem mean128_eq (x0 : (⟨Cert.ReferenceIdeal.S100000x19, .f32⟩ : BufTy).Contents (Elt Ideal))
    (x1 : (⟨Cert.ReferenceIdeal.S2x1600000, .i32⟩ : BufTy).Contents (Elt Ideal))
    (x2 x3 : (⟨Cert.ReferenceIdeal.S19x128, .f32⟩ : BufTy).Contents (Elt Ideal))
    (x4 : (⟨Cert.ReferenceIdeal.S128, .f32⟩ : BufTy).Contents (Elt Ideal)) :
    mean128 (F := Ideal) x1 (val_main_v29 (F := Ideal) x0 x1 x2 x3 x4) = val_main_v52 (F := Ideal) x0 x1 x2 x3 x4 := by
  rw [mean128_div]
  rfl

end Cert.MeanBridge

end
-- ==== Proof.RefRowMax.lean ====
/-
  The host's row maximum of a [100000, 4] array.

  A reduction by `max` over the class axis, from `-∞`, is at row `r` the fold of `max` from `-∞` over the four entries
  of the row: `SageSpec.rowMax` of the row.
-/
import proofs.«165609_j13305808683556_1_alg».proof.Proof.RefRead
import proofs.«165609_j13305808683556_1_alg».proof.Proof.Algebra

noncomputable section

namespace Cert.ReferenceIdeal.RefValue

open Cert.ReferenceIdeal Cert.ReferenceIdeal.Gen Idealize.ShloMosaic Idealize.ShloMosaic.ValueIdx Cert.SageSpec

/-- The reduced index `r` with class `k` put back is `(r, k)`. -/
theorem lift_row (h : S100000x4.Reduces [1] S100000) (r : Fin 100000) (k : Fin (S100000x4.size 1)) :
    h.lift (ix1 r) k = ix2 r (⟨k.val, k.isLt⟩ : Fin 4) := by
  funext c; apply Fin.ext
  fin_cases c <;> rfl

/-- From `-∞` the host's reduction by `max` over the four classes, at row `r`, is the row's maximum. -/
theorem hostRowMax (y : FVec Ideal S100000x4 .f32) (h' : S100000x4.ReducesTo [1] S100000) (hu : 0 < S_.numel) (r : Fin 100000) :
    Host.reduce FloatOps.maximumf y (constant (F := Ideal) S_ .f32 0xFF800000#32) h' hu (ix1 r) = rowMax (fun j => y (ix2 r j)) := by
  have h : S100000x4.Reduces [1] S100000 := by decide
  rw [Host.reduce_eq_fold_single FloatOps.maximumf y _ h' h hu]
  have hf : (y ∘ h.lift (ix1 r)) = fun k : Fin 4 => y (ix2 r k) := funext fun k => congrArg y (lift_row h r k)
  have e : Finset.fold max (Ideal.ofBits .f32 0xFF800000#32) (fun k : Fin 4 => y (ix2 r k)) (Finset.univ : Finset (Fin 4))
      = rowMax (fun j => y (ix2 r j)) := by rw [ofBits_neg_inf]; rfl
  refine Eq.trans ?_ e
  exact congrArg (fun f => Finset.fold max (Ideal.ofBits .f32 0xFF800000#32) f (Finset.univ : Finset (Fin 4))) hf

end Cert.ReferenceIdeal.RefValue

end
-- ==== Proof.RefSpec.lean ====
/-
  The reference, stage by stage, as the layer functions of `SageSpec`.

  Layer 1: the stage after the `relu` is `hidden` of the aggregated features (the stage `divide` wrote), the node
  features and the first weights. The logits are `lin2` of the second aggregation and the hidden features. The last
  stage is the reference's log-softmax: the row maximum (a reduction by `max` from `-∞`, once more maximised against
  `-∞`) is subtracted, and then the log of (zero plus) the sum of the exponentials of the shifted row. On a row of
  reals that is `SageSpec.logSoftmax` (`logSoftmax_shift`): this is where the logits being reals is used.
-/
import proofs.«165609_j13305808683556_1_alg».proof.Proof.RefRowMax

noncomputable section

namespace Cert.ReferenceIdeal.RefValue

open Cert.ReferenceIdeal Cert.ReferenceIdeal.Gen Cert.ReferenceIdeal.Read Idealize.ShloMosaic Idealize.ShloMosaic.ValueIdx Cert.SageSpec

/-- Layer 1 of the reference is `hidden` of its aggregated features. -/
theorem hidden_ref (x0 : (⟨S100000x19, .f32⟩ : BufTy).Contents (Elt Ideal)) (x1 : (⟨S2x1600000, .i32⟩ : BufTy).Contents (Elt Ideal)) (x2 x3 : (⟨S19x128, .f32⟩ : BufTy).Contents (Elt Ideal)) (x4 : (⟨S128, .f32⟩ : BufTy).Contents (Elt Ideal)) :
    val_main_v29 (F := Ideal) x0 x1 x2 x3 x4 = hidden (val_main_v22 (F := Ideal) x0 x1) x0 x2 x3 x4 := by
  funext i
  obtain ⟨r, e, rfl⟩ : ∃ (r : Fin 100000) (e : Fin 128), i = ix2 r e := ⟨i 0, i 1, eq_ix2 i⟩
  have hl23 : ∀ k : Fin 19, lidx_main_v23 (ix2 r e) k = ix2 r k := fun k => funext fun a => Fin.ext (by match a with | ⟨0, _⟩ => rfl | ⟨1, _⟩ => rfl)
  have hr23 : ∀ k : Fin 19, ridx_main_v23 (ix2 r e) k = ix2 k e := fun k => funext fun a => Fin.ext (by match a with | ⟨0, _⟩ => rfl | ⟨1, _⟩ => rfl)
  have hl24 : ∀ k : Fin 19, lidx_main_v24 (ix2 r e) k = ix2 r k := fun k => funext fun a => Fin.ext (by match a with | ⟨0, _⟩ => rfl | ⟨1, _⟩ => rfl)
  have hr24 : ∀ k : Fin 19, ridx_main_v24 (ix2 r e) k = ix2 k e := fun k => funext fun a => Fin.ext (by match a with | ⟨0, _⟩ => rfl | ⟨1, _⟩ => rfl)
  have hb : idx_main_v26 (idx_main_v27 (ix2 r e)) = ix1 e := funext fun a => Fin.ext (by match a with | ⟨0, _⟩ => rfl)
  rw [val_main_v29_apply, val_main_v28_apply, val_main_v25_apply, val_main_v23_apply, val_main_v24_apply, val_main_v27_apply,
    val_main_v26_apply, val_main_call0_v0_apply, val_main_call0_cst_apply]
  simp only [hl23, hr23, hl24, hr24, hb]
  show max (_ + _ + _) (Ideal.ofBits .f32 0x00000000#32) = _
  rw [Ideal.ofBits_zero_f32]
  rfl

/-- The reference's logits are `lin2` of its second aggregation and its hidden features. -/
theorem logits_ref (x0 : (⟨S100000x19, .f32⟩ : BufTy).Contents (Elt Ideal)) (x1 : (⟨S2x1600000, .i32⟩ : BufTy).Contents (Elt Ideal)) (x2 x3 : (⟨S19x128, .f32⟩ : BufTy).Contents (Elt Ideal)) (x4 : (⟨S128, .f32⟩ : BufTy).Contents (Elt Ideal)) (x5 x6 : (⟨S128x4, .f32⟩ : BufTy).Contents (Elt Ideal)) (x7 : (⟨S4, .f32⟩ : BufTy).Contents (Elt Ideal)) (r : Fin 100000) (e : Fin 4) :
    val_main_v58 (F := Ideal) x0 x1 x2 x3 x4 x5 x6 x7 (ix2 r e)
      = lin2 (val_main_v52 (F := Ideal) x0 x1 x2 x3 x4) (val_main_v29 (F := Ideal) x0 x1 x2 x3 x4) x5 x6 x7 r e := by
  have hl53 : ∀ k : Fin 128, lidx_main_v53 (ix2 r e) k = ix2 r k := fun k => funext fun a => Fin.ext (by match a with | ⟨0, _⟩ => rfl | ⟨1, _⟩ => rfl)
  have hr53 : ∀ k : Fin 128, ridx_main_v53 (ix2 r e) k = ix2 k e := fun k => funext fun a => Fin.ext (by match a with | ⟨0, _⟩ => rfl | ⟨1, _⟩ => rfl)
  have hl54 : ∀ k : Fin 128, lidx_main_v54 (ix2 r e) k = ix2 r k := fun k => funext fun a => Fin.ext (by match a with | ⟨0, _⟩ => rfl | ⟨1, _⟩ => rfl)
  have hr54 : ∀ k : Fin 128, ridx_main_v54 (ix2 r e) k = ix2 k e := fun k => funext fun a => Fin.ext (by match a with | ⟨0, _⟩ => rfl | ⟨1, _⟩ => rfl)
  have hb : idx_main_v56 (idx_main_v57 (ix2 r e)) = ix1 e := funext fun a => Fin.ext (by match a with | ⟨0, _⟩ => rfl)
  rw [val_main_v58_apply, val_main_v55_apply, val_main_v53_apply, val_main_v54_apply, val_main_v57_apply, val_main_v56_apply]
  simp only [hl53, hr53, hl54, hr54, hb]
  rfl

/-- The reference's row maximum (its reduction by `max` from `-∞`) is `rowMax` of the row of logits. -/
theorem rowmax_ref (x0 : (⟨S100000x19, .f32⟩ : BufTy).Contents (Elt Ideal)) (x1 : (⟨S2x1600000, .i32⟩ : BufTy).Contents (Elt Ideal)) (x2 x3 : (⟨S19x128, .f32⟩ : BufTy).Contents (Elt Ideal)) (x4 : (⟨S128, .f32⟩ : BufTy).Contents (Elt Ideal)) (x5 x6 : (⟨S128x4, .f32⟩ : BufTy).Contents (Elt Ideal)) (x7 : (⟨S4, .f32⟩ : BufTy).Contents (Elt Ideal)) (r : Fin 100000) :
    val_main_call1_v0 (F := Ideal) x0 x1 x2 x3 x4 x5 x6 x7 (ix1 r) = rowMax (fun j => val_main_v58 (F := Ideal) x0 x1 x2 x3 x4 x5 x6 x7 (ix2 r j)) := by
  unfold val_main_call1_v0 val_main_call1_cst
  exact hostRowMax _ _ _ r

/-- The shifted logits of the reference. -/
theorem shifted_ref (x0 : (⟨S100000x19, .f32⟩ : BufTy).Contents (Elt Ideal)) (x1 : (⟨S2x1600000, .i32⟩ : BufTy).Contents (Elt Ideal)) (x2 x3 : (⟨S19x128, .f32⟩ : BufTy).Contents (Elt Ideal)) (x4 : (⟨S128, .f32⟩ : BufTy).Contents (Elt Ideal)) (x5 x6 : (⟨S128x4, .f32⟩ : BufTy).Contents (Elt Ideal)) (x7 : (⟨S4, .f32⟩ : BufTy).Contents (Elt Ideal)) (r : Fin 100000) (j : Fin 4) :
    val_main_call1_v5 (F := Ideal) x0 x1 x2 x3 x4 x5 x6 x7 (ix2 r j)
      = val_main_v58 (F := Ideal) x0 x1 x2 x3 x4 x5 x6 x7 (ix2 r j) - max ⊥ (val_main_call1_v0 (F := Ideal) x0 x1 x2 x3 x4 x5 x6 x7 (ix1 r)) := by
  have hi : idx_main_call1_v3 (idx_main_call1_v4 (ix2 r j)) = ix1 r := funext fun a => Fin.ext (by match a with | ⟨0, _⟩ => rfl)
  rw [val_main_call1_v5_apply, val_main_call1_v4_apply, val_main_call1_v3_apply, val_main_call1_v2_apply, val_main_call1_v1_apply,
    val_main_call1_cst_0_apply, hi]
  show _ - max (Ideal.ofBits .f32 0xFF800000#32) _ = _
  rw [ofBits_neg_inf]

/-- The reference's log of the sum of the exponentials of the shifted row. -/
theorem logsum_ref (x0 : (⟨S100000x19, .f32⟩ : BufTy).Contents (Elt Ideal)) (x1 : (⟨S2x1600000, .i32⟩ : BufTy).Contents (Elt Ideal)) (x2 x3 : (⟨S19x128, .f32⟩ : BufTy).Contents (Elt Ideal)) (x4 : (⟨S128, .f32⟩ : BufTy).Contents (Elt Ideal)) (x5 x6 : (⟨S128x4, .f32⟩ : BufTy).Contents (Elt Ideal)) (x7 : (⟨S4, .f32⟩ : BufTy).Contents (Elt Ideal)) (r : Fin 100000) (e : Fin 4) :
    val_main_call1_v10 (F := Ideal) x0 x1 x2 x3 x4 x5 x6 x7 (ix2 r e)
      = Ideal.log (0 + ∑ j : Fin 4, Ideal.exp (val_main_call1_v5 (F := Ideal) x0 x1 x2 x3 x4 x5 x6 x7 (ix2 r j))) := by
  have hi : idx_main_call1_v8 (idx_main_call1_v10 (ix2 r e)) = ix1 r := funext fun a => Fin.ext (by match a with | ⟨0, _⟩ => rfl)
  have hk : ∀ k : Fin 4, idx_main_call1_v7 (ix1 r) k = ix2 r k := fun k => funext fun a => Fin.ext (by match a with | ⟨0, _⟩ => rfl | ⟨1, _⟩ => rfl)
  rw [val_main_call1_v10_apply, val_main_call1_v9_apply, val_main_call1_v8_apply, hi, val_main_call1_v7_apply, val_main_call1_cst_1_apply,
    Ideal.hostUnary_log_def, Ideal.ofBits_def, Ideal.ofBits_zero_f32]
  refine congrArg (fun s : EReal => Ideal.log (0 + s)) (Finset.sum_congr rfl fun k _ => ?_)
  rw [hk k, val_main_call1_v6_apply, Ideal.hostUnary_exp_def]

/-- The reference's last stage at `(r, e)`, in terms of the row of logits. -/
theorem out_row (x0 : (⟨S100000x19, .f32⟩ : BufTy).Contents (Elt Ideal)) (x1 : (⟨S2x1600000, .i32⟩ : BufTy).Contents (Elt Ideal)) (x2 x3 : (⟨S19x128, .f32⟩ : BufTy).Contents (Elt Ideal)) (x4 : (⟨S128, .f32⟩ : BufTy).Contents (Elt Ideal)) (x5 x6 : (⟨S128x4, .f32⟩ : BufTy).Contents (Elt Ideal)) (x7 : (⟨S4, .f32⟩ : BufTy).Contents (Elt Ideal)) (r : Fin 100000) (e : Fin 4) :
    val_main_v59 (F := Ideal) x0 x1 x2 x3 x4 x5 x6 x7 (ix2 r e)
      = (val_main_v58 (F := Ideal) x0 x1 x2 x3 x4 x5 x6 x7 (ix2 r e) - max ⊥ (rowMax (fun j => val_main_v58 (F := Ideal) x0 x1 x2 x3 x4 x5 x6 x7 (ix2 r j))))
        - Ideal.log (0 + ∑ j : Fin 4, Ideal.exp (val_main_v58 (F := Ideal) x0 x1 x2 x3 x4 x5 x6 x7 (ix2 r j) - max ⊥ (rowMax (fun j => val_main_v58 (F := Ideal) x0 x1 x2 x3 x4 x5 x6 x7 (ix2 r j))))) := by
  have hs : (∑ j : Fin 4, Ideal.exp (val_main_call1_v5 (F := Ideal) x0 x1 x2 x3 x4 x5 x6 x7 (ix2 r j)))
      = ∑ j : Fin 4, Ideal.exp (val_main_v58 (F := Ideal) x0 x1 x2 x3 x4 x5 x6 x7 (ix2 r j) - max ⊥ (rowMax (fun j => val_main_v58 (F := Ideal) x0 x1 x2 x3 x4 x5 x6 x7 (ix2 r j)))) :=
    Finset.sum_congr rfl fun j _ => by rw [shifted_ref, rowmax_ref]
  rw [val_main_v59_apply, logsum_ref, shifted_ref, rowmax_ref, Ideal.subf_def, hs]

/-- The reference's result is `out` of its second aggregation and its hidden features, when the logits are reals. -/
theorem out_ref (x0 : (⟨S100000x19, .f32⟩ : BufTy).Contents (Elt Ideal)) (x1 : (⟨S2x1600000, .i32⟩ : BufTy).Contents (Elt Ideal)) (x2 x3 : (⟨S19x128, .f32⟩ : BufTy).Contents (Elt Ideal)) (x4 : (⟨S128, .f32⟩ : BufTy).Contents (Elt Ideal)) (x5 x6 : (⟨S128x4, .f32⟩ : BufTy).Contents (Elt Ideal)) (x7 : (⟨S4, .f32⟩ : BufTy).Contents (Elt Ideal))
    (hA : ∀ (r : Fin 100000) (j : Fin 4), IsReal (lin2 (val_main_v52 (F := Ideal) x0 x1 x2 x3 x4) (val_main_v29 (F := Ideal) x0 x1 x2 x3 x4) x5 x6 x7 r j)) :
    val_main_v59 (F := Ideal) x0 x1 x2 x3 x4 x5 x6 x7 = out (val_main_v52 (F := Ideal) x0 x1 x2 x3 x4) (val_main_v29 (F := Ideal) x0 x1 x2 x3 x4) x5 x6 x7 := by
  funext i
  obtain ⟨r, e, rfl⟩ : ∃ (r : Fin 100000) (e : Fin 4), i = ix2 r e := ⟨i 0, i 1, eq_ix2 i⟩
  have hrow : (fun j => val_main_v58 (F := Ideal) x0 x1 x2 x3 x4 x5 x6 x7 (ix2 r j)) = fun j => lin2 (val_main_v52 (F := Ideal) x0 x1 x2 x3 x4) (val_main_v29 (F := Ideal) x0 x1 x2 x3 x4) x5 x6 x7 r j :=
    funext fun j => logits_ref x0 x1 x2 x3 x4 x5 x6 x7 r j
  have key := logSoftmax_shift (fun j => val_main_v58 (F := Ideal) x0 x1 x2 x3 x4 x5 x6 x7 (ix2 r j)) (fun j => by rw [logits_ref]; exact hA r j) e
  rw [out_row]
  refine key.trans ?_
  rw [hrow]
  rfl

end Cert.ReferenceIdeal.RefValue

end
-- ==== Proof.RefFinite.lean ====
/-
  Under finite inputs every logit of the reference is a real.

  The aggregated features are a quotient: numerator a scatter-add (from zeros) of gathered rows of a real array, hence
  real; denominator `max(count, 1)` with the count a scatter-add (from zeros) of ones, hence a real that is not zero.
  So the first aggregation is real, then the hidden features (`hidden` of reals), then the second aggregation in the
  same way, then the logits (`lin2` of reals).
-/
import proofs.«165609_j13305808683556_1_alg».proof.Proof.RefSpec

noncomputable section

namespace Cert.ReferenceIdeal.RefValue

open Cert.ReferenceIdeal Cert.ReferenceIdeal.Gen Cert.ReferenceIdeal.Read Idealize.ShloMosaic Idealize.ShloMosaic.ValueIdx Cert.SageSpec

theorem zero19_isReal (i : S100000x19.Idx) : IsReal (val_main_v11 (F := Ideal) i) := by
  rw [val_main_v11_apply, val_main_cst_apply]
  rw [Ideal.ofBits_def, Ideal.ofBits_zero_f32]; exact isReal_zero

theorem ones1_isReal (i : S1600000.Idx) : IsReal (val_main_v14 (F := Ideal) i) := by
  rw [val_main_v14_apply, val_main_cst_1_apply]
  rw [Ideal.ofBits_def, ofBits_one]; exact isReal_one

theorem zeroN1_isReal (i : S100000.Idx) : IsReal (val_main_v15 (F := Ideal) i) := by
  rw [val_main_v15_apply, val_main_cst_2_apply]
  rw [Ideal.ofBits_def, Ideal.ofBits_zero_f32]; exact isReal_zero

theorem zero128_isReal (i : S100000x128.Idx) : IsReal (val_main_v41 (F := Ideal) i) := by
  rw [val_main_v41_apply, val_main_cst_6_apply]
  rw [Ideal.ofBits_def, Ideal.ofBits_zero_f32]; exact isReal_zero

theorem ones2_isReal (i : S1600000.Idx) : IsReal (val_main_v44 (F := Ideal) i) := by
  rw [val_main_v44_apply, val_main_cst_7_apply]
  rw [Ideal.ofBits_def, ofBits_one]; exact isReal_one

theorem zeroN2_isReal (i : S100000.Idx) : IsReal (val_main_v45 (F := Ideal) i) := by
  rw [val_main_v45_apply, val_main_cst_8_apply]
  rw [Ideal.ofBits_def, Ideal.ofBits_zero_f32]; exact isReal_zero

/-- The first aggregation is real. -/
theorem mean1_isReal (x0 : (⟨S100000x19, .f32⟩ : BufTy).Contents (Elt Ideal)) (x1 : (⟨S2x1600000, .i32⟩ : BufTy).Contents (Elt Ideal)) (x2 x3 : (⟨S19x128, .f32⟩ : BufTy).Contents (Elt Ideal)) (x4 : (⟨S128, .f32⟩ : BufTy).Contents (Elt Ideal)) (hx0 : ∀ i, IsReal (x0 i)) (i : S100000x19.Idx) :
    IsReal (val_main_v22 (F := Ideal) x0 x1 i) := by
  rw [val_main_v22_apply, val_main_v21_apply, val_main_v20_apply, val_main_v19_apply, val_main_v18_apply, val_main_cst_3_apply]
  rw [Ideal.hostDivf_def, Ideal.maximumf_def, Ideal.ofBits_def, ofBits_one]
  refine IsReal.div ?_ (IsReal.max ?_ isReal_one) (max_one_ne_zero _)
  · unfold val_main_v13 val_main_v10
    exact scatterAdd_isReal _ _ _ _ zero19_isReal (fun j => gather_isReal _ _ _ hx0 j) i
  · unfold val_main_v17
    exact scatterAdd_isReal _ _ _ _ zeroN1_isReal ones1_isReal _

/-- The hidden features are real. -/
theorem hidden_isReal_ref (x0 : (⟨S100000x19, .f32⟩ : BufTy).Contents (Elt Ideal)) (x1 : (⟨S2x1600000, .i32⟩ : BufTy).Contents (Elt Ideal)) (x2 x3 : (⟨S19x128, .f32⟩ : BufTy).Contents (Elt Ideal)) (x4 : (⟨S128, .f32⟩ : BufTy).Contents (Elt Ideal)) (hx0 : ∀ i, IsReal (x0 i)) (hx2 : ∀ i, IsReal (x2 i)) (hx3 : ∀ i, IsReal (x3 i))
    (hx4 : ∀ i, IsReal (x4 i)) (i : S100000x128.Idx) : IsReal (val_main_v29 (F := Ideal) x0 x1 x2 x3 x4 i) := by
  rw [hidden_ref]
  exact hidden_isReal (mean1_isReal x0 x1 x2 x3 x4 hx0) hx0 hx2 hx3 hx4 i

/-- The second aggregation is real. -/
theorem mean2_isReal (x0 : (⟨S100000x19, .f32⟩ : BufTy).Contents (Elt Ideal)) (x1 : (⟨S2x1600000, .i32⟩ : BufTy).Contents (Elt Ideal)) (x2 x3 : (⟨S19x128, .f32⟩ : BufTy).Contents (Elt Ideal)) (x4 : (⟨S128, .f32⟩ : BufTy).Contents (Elt Ideal)) (hx0 : ∀ i, IsReal (x0 i)) (hx2 : ∀ i, IsReal (x2 i)) (hx3 : ∀ i, IsReal (x3 i))
    (hx4 : ∀ i, IsReal (x4 i)) (i : S100000x128.Idx) : IsReal (val_main_v52 (F := Ideal) x0 x1 x2 x3 x4 i) := by
  rw [val_main_v52_apply, val_main_v51_apply, val_main_v50_apply, val_main_v49_apply, val_main_v48_apply, val_main_cst_9_apply]
  rw [Ideal.hostDivf_def, Ideal.maximumf_def, Ideal.ofBits_def, ofBits_one]
  refine IsReal.div ?_ (IsReal.max ?_ isReal_one) (max_one_ne_zero _)
  · unfold val_main_v43 val_main_v40
    exact scatterAdd_isReal _ _ _ _ zero128_isReal
      (fun j => gather_isReal _ _ _ (hidden_isReal_ref x0 x1 x2 x3 x4 hx0 hx2 hx3 hx4) j) i
  · unfold val_main_v47
    exact scatterAdd_isReal _ _ _ _ zeroN2_isReal ones2_isReal _

/-- The logits are real. -/
theorem logits_isReal (x0 : (⟨S100000x19, .f32⟩ : BufTy).Contents (Elt Ideal)) (x1 : (⟨S2x1600000, .i32⟩ : BufTy).Contents (Elt Ideal)) (x2 x3 : (⟨S19x128, .f32⟩ : BufTy).Contents (Elt Ideal)) (x4 : (⟨S128, .f32⟩ : BufTy).Contents (Elt Ideal)) (x5 x6 : (⟨S128x4, .f32⟩ : BufTy).Contents (Elt Ideal)) (x7 : (⟨S4, .f32⟩ : BufTy).Contents (Elt Ideal)) (hx0 : ∀ i, IsReal (x0 i)) (hx2 : ∀ i, IsReal (x2 i)) (hx3 : ∀ i, IsReal (x3 i))
    (hx4 : ∀ i, IsReal (x4 i)) (hx5 : ∀ i, IsReal (x5 i)) (hx6 : ∀ i, IsReal (x6 i)) (hx7 : ∀ i, IsReal (x7 i))
    (r : Fin 100000) (j : Fin 4) :
    IsReal (lin2 (val_main_v52 (F := Ideal) x0 x1 x2 x3 x4) (val_main_v29 (F := Ideal) x0 x1 x2 x3 x4) x5 x6 x7 r j) :=
  lin2_isReal (mean2_isReal x0 x1 x2 x3 x4 hx0 hx2 hx3 hx4) (hidden_isReal_ref x0 x1 x2 x3 x4 hx0 hx2 hx3 hx4) hx5 hx6 hx7 r j

end Cert.ReferenceIdeal.RefValue

end
-- ==== Proof.Bridge.lean ====
/-
  The two programs' results as ONE function of the arguments.

  With `E` the edge list, `X` the node features and the two layers' weights and biases: both results are
      out (mean128 E H) H W2l W2r b2      where  H = hidden (mean19 E X) X W1l W1r b1,
  `mean19` / `mean128` the mean aggregations over the edges. The kernel reaches it region by region (each dense
  kernel's output array is the layer function of the arrays it was entered with; the host aggregates in between).
  The reference reaches it stage by stage; its aggregation divides where the kernel multiplies by a reciprocal, and its
  log-softmax groups the subtraction differently, which is where the inputs' finiteness is used.
-/
import proofs.«165609_j13305808683556_1_alg».proof.Proof.KernelGlue
import proofs.«165609_j13305808683556_1_alg».proof.Proof.Region0Array
import proofs.«165609_j13305808683556_1_alg».proof.Proof.Region1Array
import proofs.«165609_j13305808683556_1_alg».proof.Proof.MeanBridge
import proofs.«165609_j13305808683556_1_alg».proof.Proof.RefFinite

noncomputable section

namespace Cert.Bridge

open Idealize.ShloMosaic Idealize.ShloMosaic.TcCoe Idealize.SL.Sem Cert.SageSpec

/-- The common value. -/
def value (x0 : FVec Ideal Cert.KernelIdeal.S100000x19 .f32) (x1 : IVec Cert.KernelIdeal.S2x1600000 32)
    (x2 x3 : FVec Ideal Cert.KernelIdeal.S19x128 .f32) (x4 : FVec Ideal Cert.KernelIdeal.S128 .f32)
    (x5 x6 : FVec Ideal Cert.KernelIdeal.S128x4 .f32) (x7 : FVec Ideal Cert.KernelIdeal.S4 .f32) :
    FVec Ideal Cert.KernelIdeal.S100000x4 .f32 :=
  out (Cert.KernelIdeal.HostTerms.mean128 (F := Ideal) x1 (hidden (Cert.KernelIdeal.HostTerms.mean19 (F := Ideal) x1 x0) x0 x2 x3 x4))
    (hidden (Cert.KernelIdeal.HostTerms.mean19 (F := Ideal) x1 x0) x0 x2 x3 x4) x5 x6 x7

section Kernel
open Cert.KernelIdeal Cert.KernelIdeal.KernelGlue

/-- The kernel program's result array, read off its run region by region. -/
theorem kernel_value (m : (ℓ : Loc nD τ sig) → Buf (Elt Ideal) ℓ) (ρ : Dev nD → PrngReg) (c : Dev nD) :
    Gen.W4 m ρ c (Proc.devRef .tc main_v39)
      = value (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  rw [result_eq m ρ c, Cert.KernelIdeal.Region1.array_eq (Gen.V3 m ρ) c, V3_mean m ρ c, V3_arg5 m ρ c, V3_arg6 m ρ c, V3_arg7 m ρ c,
    hidden_eq m ρ c, Cert.KernelIdeal.Region0.array_eq (Gen.V1 m ρ) c, V1_mean m ρ c, V1_arg0 m ρ c, V1_arg2 m ρ c, V1_arg3 m ρ c,
    V1_arg4 m ρ c]
  rfl

end Kernel

section Reference
open Cert.ReferenceIdeal Cert.ReferenceIdeal.Read Cert.ReferenceIdeal.RefValue

/-- The reference's last stage is the common value, when every float input is real. -/
theorem ref_value (x0 : (⟨S100000x19, .f32⟩ : BufTy).Contents (Elt Ideal)) (x1 : (⟨S2x1600000, .i32⟩ : BufTy).Contents (Elt Ideal)) (x2 x3 : (⟨S19x128, .f32⟩ : BufTy).Contents (Elt Ideal)) (x4 : (⟨S128, .f32⟩ : BufTy).Contents (Elt Ideal)) (x5 x6 : (⟨S128x4, .f32⟩ : BufTy).Contents (Elt Ideal)) (x7 : (⟨S4, .f32⟩ : BufTy).Contents (Elt Ideal)) (hx0 : ∀ i, IsReal (x0 i)) (hx2 : ∀ i, IsReal (x2 i)) (hx3 : ∀ i, IsReal (x3 i))
    (hx4 : ∀ i, IsReal (x4 i)) (hx5 : ∀ i, IsReal (x5 i)) (hx6 : ∀ i, IsReal (x6 i)) (hx7 : ∀ i, IsReal (x7 i)) :
    val_main_v59 (F := Ideal) x0 x1 x2 x3 x4 x5 x6 x7 = value x0 x1 x2 x3 x4 x5 x6 x7 := by
  rw [out_ref x0 x1 x2 x3 x4 x5 x6 x7 (logits_isReal x0 x1 x2 x3 x4 x5 x6 x7 hx0 hx2 hx3 hx4 hx5 hx6 hx7), ← Cert.MeanBridge.mean128_eq x0 x1 x2 x3 x4,
    hidden_ref x0 x1 x2 x3 x4, ← Cert.MeanBridge.mean19_eq x0 x1]
  rfl

end Reference

end Cert.Bridge

end
-- ==== Proof.Finite.lean ====
/-
  What the precondition gives: every entry of every float input is a real.

  The precondition is the conjunction, over the seven float inputs, of "every entry's absolute value compares below
  `+∞`", each conjunct a reduction by `and` of the entrywise comparisons into one word, and it says the conjunction
  is the word 1. A conjunction that is 1 has both conjuncts 1; a reduction by `and` into one word that is 1 met a 1 at
  every entry; and an extended real with `max x (-x) < ⊤` is neither infinity.
-/
import proofs.«165609_j13305808683556_1_alg».proof.Pre_finite_inputs
import proofs.«165609_j13305808683556_1_alg».proof.Proof.Algebra
import Idealize.ShloMosaic.Lib.ReduceAll

noncomputable section

namespace Cert.FiniteInputs

open Idealize.ShloMosaic Idealize.ShloMosaic.ValueIdx Cert.SageSpec Cert.Pre_finite_inputs

variable [hF : Cert.Pre_finite_inputs.Facts]
open Cert.Pre_finite_inputs.Facts

/-- The rank-0 shape has one index. -/
instance : Subsingleton Cert.Pre_finite_inputs.S_.Idx := ⟨fun a b => funext fun d => d.elim0⟩

/-- One conjunct: if the reduction by `and` of `|x| < +∞` over every entry is the word 1, every entry of `x` is a real. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
          (constantI S_ 1 1#1) hr hu ix0 = 1#1) (i : s.Idx) : IsReal (x i) := by
  have h := Host.reduce_andi_all _ _ hr hu ix0 e i
  refine isReal_of_abs_lt_top (x i) ?_
  rw [← ofBits_pos_inf]
  exact h

/-- Under the precondition every entry of every float input is a real. -/
theorem inputs_real (x0 : FVec Ideal S100000x19 .f32) (x1 : IVec S2x1600000 32) (x2 x3 : FVec Ideal S19x128 .f32)
    (x4 : FVec Ideal S128 .f32) (x5 x6 : FVec Ideal S128x4 .f32) (x7 : FVec Ideal S4 .f32)
    (h : fn (F := Ideal) x0 x1 x2 x3 x4 x5 x6 x7 = fun _ => 1#1) :
    (∀ i, IsReal (x0 i)) ∧ (∀ i, IsReal (x2 i)) ∧ (∀ i, IsReal (x3 i)) ∧ (∀ i, IsReal (x4 i)) ∧ (∀ i, IsReal (x5 i))
      ∧ (∀ i, IsReal (x6 i)) ∧ (∀ i, IsReal (x7 i)) := by
  have h0 := congrFun h ix0
  dsimp only [fn, fn_part1] at h0
  obtain ⟨h28, e7⟩ := IntOp.andi_eq_one.mp h0
  obtain ⟨h23, e6⟩ := IntOp.andi_eq_one.mp h28
  obtain ⟨h18, e5⟩ := IntOp.andi_eq_one.mp h23
  obtain ⟨h13, e4⟩ := IntOp.andi_eq_one.mp h18
  obtain ⟨h8, e3⟩ := IntOp.andi_eq_one.mp h13
  obtain ⟨e0, e2⟩ := IntOp.andi_eq_one.mp h8
  exact ⟨all_real x0 _ _ _ e0, all_real x2 _ _ _ e2, all_real x3 _ _ _ e3, all_real x4 _ _ _ e4, all_real x5 _ _ _ e5,
    all_real x6 _ _ _ e6, all_real x7 _ _ _ e7⟩

end Cert.FiniteInputs

end
-- ==== Proof.lean ====
/-
  The certificate: a two-layer GraphSAGE (mean aggregation; `relu`, then log-softmax over four classes) whose dense
  per-node stages are two Pallas kernels, against the plain jnp model.

  * The three frames: both kernel programs' frames are the generated ones; the reference has no kernel, and its frame
    is its run with the result dropped.
  * `preserves`: the idealization rewrote nothing, so there is nothing to state.
  * `algebraic`: on the extended reals both programs end with the array `Bridge.value` of the arguments — the kernel
    program region by region (`Bridge.kernel_value` over its run with the result array named), the reference stage by
    stage (`Bridge.ref_value`). The two differ where the kernel multiplies the aggregate by `1 / max(count, 1)` and the
    reference divides by `max(count, 1)` (equal for every aggregate since the divisor is not zero), and where the
    log-softmax subtracts `max + log Σ exp` at once or in two steps — equal on reals, not at infinities, which is why
    the precondition (every float input finite) is used: it makes every logit a real.
-/
import proofs.«165609_j13305808683556_1_alg».proof.Defs
import proofs.«165609_j13305808683556_1_alg».proof.Proof.Gen.Kernel
import proofs.«165609_j13305808683556_1_alg».proof.Proof.Gen.Kernel.Skeleton
import proofs.«165609_j13305808683556_1_alg».proof.Proof.Gen.Kernel.Launch
import proofs.«165609_j13305808683556_1_alg».proof.Proof.Gen.Kernel.Points
import proofs.«165609_j13305808683556_1_alg».proof.Proof.Gen.Kernel.Frame
import proofs.«165609_j13305808683556_1_alg».proof.Proof.Gen.KernelIdeal
import proofs.«165609_j13305808683556_1_alg».proof.Proof.Gen.KernelIdeal.Skeleton
import proofs.«165609_j13305808683556_1_alg».proof.Proof.Gen.KernelIdeal.Launch
import proofs.«165609_j13305808683556_1_alg».proof.Proof.Gen.KernelIdeal.Points
import proofs.«165609_j13305808683556_1_alg».proof.Proof.Gen.KernelIdeal.Frame
import proofs.«165609_j13305808683556_1_alg».proof.Proof.Gen.ReferenceIdeal
import proofs.«165609_j13305808683556_1_alg».proof.Proof.Gen.Pre_finite_inputs
import proofs.«165609_j13305808683556_1_alg».proof.Proof.KernelRun
import proofs.«165609_j13305808683556_1_alg».proof.Proof.Bridge
import proofs.«165609_j13305808683556_1_alg».proof.Proof.Finite
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at `Bridge.value` of the arguments. -/
theorem algebraic : Cert.algebraic_KernelIdeal_ReferenceIdeal := by
  intro m ρ m' ρ' hpre hagree
  refine ⟨fun c => Cert.Bridge.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.Bridge.kernel_value m ρ c), (h c).2⟩)
      (Cert.KernelIdeal.KernelRun.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    obtain ⟨r0, r2, r3, r4, r5, r6, r7⟩ := Cert.FiniteInputs.inputs_real _ _ _ _ _ _ _ _ (hpre c)
    rw [Cert.ReferenceIdeal.Read.val_main_v59_eq, e0, e1, e2, e3, e4, e5, e6, e7]
    exact Cert.Bridge.ref_value _ _ _ _ _ _ _ _ r0 r2 r3 r4 r5 r6 r7

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
